-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x165 : Shape := ⟨2, ![200000, 165]⟩
abbrev S2x6400000 : Shape := ⟨2, ![2, 6400000]⟩
abbrev S165x16 : Shape := ⟨2, ![165, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S200000x165 : S_.BroadcastsInDim S200000x165 (![] : Fin 0 → Fin S200000x165.rank)
  reducesTo_S200000x165_S_d0_1 : S200000x165.ReducesTo [0, 1] S_
  h_S_ : 0 < S_.numel
  bcast_S_S165x16 : S_.BroadcastsInDim S165x16 (![] : Fin 0 → Fin S165x16.rank)
  reducesTo_S165x16_S_d0_1 : S165x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S200000x165 .f32) (main_arg1 : IVec S2x6400000 32) (main_arg2 : FVec F S165x16 .f32) (main_arg3 : FVec F S16 .f32) (main_arg4 : FVec F S16x2 .f32) (main_arg5 : FVec F S2 .f32) : IVec S_ 1 :=
  let main_v0 : FVec F S200000x165 .f32 := Host.absf main_arg0
  let main_cst : FVec F S_ .f32 := constant S_ .f32 0x7F800000#32
  let main_v1 : FVec F S200000x165 .f32 := broadcastInDim S200000x165 ![] bcast_S_S200000x165 main_cst
  let main_v2 : IVec S200000x165 1 := cmpf .olt main_v0 main_v1
  let main_c : IVec S_ 1 := constantI S_ 1 1#1
  let main_v3 : IVec S_ 1 := (fun x v => Host.reduce IntOp.andi x v reducesTo_S200000x165_S_d0_1 h_S_) main_v2 main_c
  let main_v4 : FVec F S165x16 .f32 := Host.absf main_arg2
  let main_cst_0 : FVec F S_ .f32 := constant S_ .f32 0x7F800000#32
  let main_v5 : FVec F S165x16 .f32 := broadcastInDim S165x16 ![] bcast_S_S165x16 main_cst_0
  let main_v6 : IVec S165x16 1 := cmpf .olt main_v4 main_v5
  let main_c_1 : IVec S_ 1 := constantI S_ 1 1#1
  let main_v7 : IVec S_ 1 := (fun x v => Host.reduce IntOp.andi x v reducesTo_S165x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S200000x165 : Shape := ⟨2, ![200000, 165]⟩
abbrev S2x6400000 : Shape := ⟨2, ![2, 6400000]⟩
abbrev S165x16 : Shape := ⟨2, ![165, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S8000x165 : Shape := ⟨2, ![8000, 165]⟩
abbrev S8000x16 : Shape := ⟨2, ![8000, 16]⟩
abbrev S6600000x16 : Shape := ⟨2, ![6600000, 16]⟩
abbrev S8000x1 : Shape := ⟨2, ![8000, 1]⟩
abbrev S1x16 : Shape := ⟨2, ![1, 16]⟩
abbrev S200000x2 : Shape := ⟨2, ![200000, 2]⟩
abbrev S20000x16 : Shape := ⟨2, ![20000, 16]⟩
abbrev S20000x2 : Shape := ⟨2, ![20000, 2]⟩
abbrev S6600000x2 : Shape := ⟨2, ![6600000, 2]⟩
abbrev S8000x2 : Shape := ⟨2, ![8000, 2]⟩
abbrev S1x2 : Shape := ⟨2, ![1, 2]⟩

abbrev nBuf : Space → Nat
  | .hbm => 86
  | .vmem => 22
  | .smem => 0
  | _ => 0

abbrev bufTy : (tb : Table) → Fin (tcTables nBuf tb) → BufTy
  | .hbm, ⟨0, _⟩ => ⟨S200000x165, .f32⟩
  | .hbm, ⟨1, _⟩ => ⟨S2x6400000, .i32⟩
  | .hbm, ⟨2, _⟩ => ⟨S165x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S6600000x1, .f32⟩
  | .hbm, ⟨47, _⟩ => ⟨S200000x16, .f32⟩
  | .hbm, ⟨48, _⟩ => ⟨S_, .i32⟩
  | .hbm, ⟨49, _⟩ => ⟨S6600000, .i32⟩
  | .hbm, ⟨50, _⟩ => ⟨S6600000, .i1⟩
  | .hbm, ⟨51, _⟩ => ⟨S_, .i32⟩
  | .hbm, ⟨52, _⟩ => ⟨S6600000, .i32⟩
  | .hbm, ⟨53, _⟩ => ⟨S6600000, .i32⟩
  | .hbm, ⟨54, _⟩ => ⟨S6600000, .i32⟩
  | .hbm, ⟨55, _⟩ => ⟨S6600000x1, .i32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S200000x2, .f32⟩
  | .hbm, ⟨69, _⟩ => ⟨S_, .i32⟩
  | .hbm, ⟨70, _⟩ => ⟨S6600000, .i32⟩
  | .hbm, ⟨71, _⟩ => ⟨S6600000, .i1⟩
  | .hbm, ⟨72, _⟩ => ⟨S_, .i32⟩
  | .hbm, ⟨73, _⟩ => ⟨S6600000, .i32⟩
  | .hbm, ⟨74, _⟩ => ⟨S6600000, .i32⟩
  | .hbm, ⟨75, _⟩ => ⟨S6600000, .i32⟩
  | .hbm, ⟨76, _⟩ => ⟨S6600000x1, .i32⟩
  | .hbm, ⟨77, _⟩ => ⟨S6600000x2, .f32⟩
  | .hbm, ⟨78, _⟩ => ⟨S6600000x2, .f32⟩
  | .hbm, ⟨79, _⟩ => ⟨S_, .f32⟩
  | .hbm, ⟨80, _⟩ => ⟨S200000x2, .f32⟩
  | .hbm, ⟨81, _⟩ => ⟨S6600000x1, .i32⟩
  | .hbm, ⟨82, _⟩ => ⟨S200000x2, .f32⟩
  | .hbm, ⟨83, _⟩ => ⟨S1x2, .f32⟩
  | .hbm, ⟨84, _⟩ => ⟨S200000x2, .f32⟩
  | .hbm, ⟨85, _⟩ => ⟨S200000x2, .f32⟩
  | .local _ .vmem, ⟨0, _⟩ => ⟨S8000x165, .f32⟩
  | .local _ .vmem, ⟨1, _⟩ => ⟨S8000x165, .f32⟩
  | .local _ .vmem, ⟨2, _⟩ => ⟨S165x16, .f32⟩
  | .local _ .vmem, ⟨3, _⟩ => ⟨S8000x16, .f32⟩
  | .local _ .vmem, ⟨4, _⟩ => ⟨S8000x16, .f32⟩
  | .local _ .vmem, ⟨5, _⟩ => ⟨S8000x16, .f32⟩
  | .local _ .vmem, ⟨6, _⟩ => ⟨S8000x16, .f32⟩
  | .local _ .vmem, ⟨7, _⟩ => ⟨S8000x1, .f32⟩
  | .local _ .vmem, ⟨8, _⟩ => ⟨S8000x1, .f32⟩
  | .local _ .vmem, ⟨9, _⟩ => ⟨S8000x16, .f32⟩
  | .local _ .vmem, ⟨10, _⟩ => ⟨S8000x16, .f32⟩
  | .local _ .vmem, ⟨11, _⟩ => ⟨S20000x16, .f32⟩
  | .local _ .vmem, ⟨12, _⟩ => ⟨S20000x16, .f32⟩
  | .local _ .vmem, ⟨13, _⟩ => ⟨S16x2, .f32⟩
  | .local _ .vmem, ⟨14, _⟩ => ⟨S20000x2, .f32⟩
  | .local _ .vmem, ⟨15, _⟩ => ⟨S20000x2, .f32⟩
  | .local _ .vmem, ⟨16, _⟩ => ⟨S8000x2, .f32⟩
  | .local _ .vmem, ⟨17, _⟩ => ⟨S8000x2, .f32⟩
  | .local _ .vmem, ⟨18, _⟩ => ⟨S8000x1, .f32⟩
  | .local _ .vmem, ⟨19, _⟩ => ⟨S8000x1, .f32⟩
  | .local _ .vmem, ⟨20, _⟩ => ⟨S8000x2, .f32⟩
  | .local _ .vmem, ⟨21, _⟩ => ⟨S8000x2, .f32⟩
  | _, _ => ⟨S200000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call1_cst : Ref sig .tc := ⟨.hbm, 65, rfl⟩
abbrev main_call1_v0 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![825], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![825], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S6600000_S6600000x1 : S6600000.ShapeCasts S6600000x1
  inb_S8000x165_S8000x165_0_0 : ∀ a, (![0, 0] : Fin 2 → Nat) a + S8000x165.size a ≤ S8000x165.size a
  h_S8000x165 : 0 < S8000x165.numel
  bitsLt_bf16_f32 : FTy.bits .bf16 < FTy.bits .f32
  inb_S165x16_S165x16_0_0 : ∀ a, (![0, 0] : Fin 2 → Nat) a + S165x16.size a ≤ S165x16.size a
  h_S165x16 : 0 < S165x16.numel
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S16x2_S16x2_0_0 : ∀ a, (![0, 0] : Fin 2 → Nat) a + S16x2.size a ≤ S16x2.size a
  h_S16x2 : 0 < S16x2.numel
  inb_S20000x2_S20000x2_0_0 : ∀ a, (![0, 0] : Fin 2 → Nat) a + S20000x2.size a ≤ S20000x2.size a
  h_S20000x2 : 0 < S20000x2.numel
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  broadcasts_S8000x1_S8000x2 : S8000x1.Broadcasts S8000x2
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S8000x165_S165x16_S8000x16_1_0_0_1_n_n_wf : DotDims.WF S8000x165 S165x16 S8000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S20000x16_S16x2_S20000x2_1_0_0_1_n_n_wf : DotDims.WF S20000x16 S16x2 S20000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x165.size a ≤ S200000x165.size a
  hwx0_0 : ∀ i : grid0.Coords, EltTy.bits .f32 = 32 ∨ (Rect.block (s := S200000x165) S8000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x16.size a ≤ S165x16.size a
  hwx0_1 : ∀ i : grid0.Coords, EltTy.bits .f32 = 32 ∨ (Rect.block (s := S165x16) S165x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S200000x16.size a
  hwx0_2 : ∀ i : grid0.Coords, EltTy.bits .f32 = 32 ∨ (Rect.block (s := S200000x16) S8000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S6600000x16.size a
  hwx1_0 : ∀ i : grid1.Coords, EltTy.bits .f32 = 32 ∨ (Rect.block (s := S6600000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S6600000x1.size a
  hwx1_1 : ∀ i : grid1.Coords, EltTy.bits .f32 = 32 ∨ (Rect.block (s := S6600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x16.size a ≤ S6600000x16.size a
  hwx1_2 : ∀ i : grid1.Coords, EltTy.bits .f32 = 32 ∨ (Rect.block (s := S6600000x16) S8000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S200000x16.size a
  hwx2_0 : ∀ i : grid2.Coords, EltTy.bits .f32 = 32 ∨ (Rect.block (s := S200000x16) S20000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x2.size a ≤ S200000x2.size a
  hwx2_2 : ∀ i : grid2.Coords, EltTy.bits .f32 = 32 ∨ (Rect.block (s := S200000x2) S20000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x2.size a ≤ S6600000x2.size a
  hwx3_0 : ∀ i : grid3.Coords, EltTy.bits .f32 = 32 ∨ (Rect.block (s := S6600000x2) S8000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S6600000x1.size a
  hwx3_1 : ∀ i : grid3.Coords, EltTy.bits .f32 = 32 ∨ (Rect.block (s := S6600000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x2.size a ≤ S6600000x2.size a
  hwx3_2 : ∀ i : grid3.Coords, EltTy.bits .f32 = 32 ∨ (Rect.block (s := S6600000x2) S8000x2.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S8000x165_S165x16_S8000x16_1_0_0_1_n_n : DotDims S8000x165 S165x16 S8000x16 where
  lhsContracting := [1]
  rhsContracting := [0]
  lhsNonContracting := [0]
  rhsNonContracting := [1]
  lhsBatch := []
  rhsBatch := []
  wf := dot_S8000x165_S165x16_S8000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S20000x16_S16x2_S20000x2_1_0_0_1_n_n : DotDims S20000x16 S16x2 S20000x2 where
  lhsContracting := [1]
  rhsContracting := [0]
  lhsNonContracting := [0]
  rhsNonContracting := [1]
  lhsBatch := []
  rhsBatch := []
  wf := dot_S20000x16_S16x2_S20000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

abbrev win0_0 : Pipeline.Window sig grid0 :=
  Pipeline.Window.ofSpec (Memref.whole main_arg0) S8000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S8000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S20000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S8000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S8000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x165 : Shape := ⟨2, ![200000, 165]⟩
abbrev S2x6400000 : Shape := ⟨2, ![2, 6400000]⟩
abbrev S165x16 : Shape := ⟨2, ![165, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x2 : Shape := ⟨2, ![200000, 2]⟩
abbrev S6600000x2 : Shape := ⟨2, ![6600000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S200000x165, .f32⟩
  | 1 => ⟨S2x6400000, .i32⟩
  | 2 => ⟨S165x16, .f32⟩
  | 3 => ⟨S16, .f32⟩
  | 4 => ⟨S16x2, .f32⟩
  | 5 => ⟨S2, .f32⟩
  | 6 => ⟨S1x6400000, .i32⟩
  | 7 => ⟨S6400000, .i32⟩
  | 8 => ⟨S1x6400000, .i32⟩
  | 9 => ⟨S6400000, .i32⟩
  | 10 => ⟨S200000, .i32⟩
  | 11 => ⟨S6600000, .i32⟩
  | 12 => ⟨S6600000, .i32⟩
  | 13 => ⟨S_, .f32⟩
  | 14 => ⟨S6600000, .f32⟩
  | 15 => ⟨S_, .f32⟩
  | 16 => ⟨S200000, .f32⟩
  | 17 => ⟨S6600000x1, .i32⟩
  | 18 => ⟨S200000, .f32⟩
  | 19 => ⟨S_, .f32⟩
  | 20 => ⟨S200000, .f32⟩
  | 21 => ⟨S200000, .i1⟩
  | 22 => ⟨S200000, .f32⟩
  | 23 => ⟨S_, .f32⟩
  | 24 => ⟨S_, .f32⟩
  | 25 => ⟨S200000, .f32⟩
  | 26 => ⟨S200000, .f32⟩
  | 27 => ⟨S_, .i32⟩
  | 28 => ⟨S6600000, .i32⟩
  | 29 => ⟨S6600000, .i1⟩
  | 30 => ⟨S_, .i32⟩
  | 31 => ⟨S6600000, .i32⟩
  | 32 => ⟨S6600000, .i32⟩
  | 33 => ⟨S6600000, .i32⟩
  | 34 => ⟨S6600000x1, .i32⟩
  | 35 => ⟨S6600000, .f32⟩
  | 36 => ⟨S_, .i32⟩
  | 37 => ⟨S6600000, .i32⟩
  | 38 => ⟨S6600000, .i1⟩
  | 39 => ⟨S_, .i32⟩
  | 40 => ⟨S6600000, .i32⟩
  | 41 => ⟨S6600000, .i32⟩
  | 42 => ⟨S6600000, .i32⟩
  | 43 => ⟨S6600000x1, .i32⟩
  | 44 => ⟨S6600000, .f32⟩
  | 45 => ⟨S6600000, .f32⟩
  | 46 => ⟨S200000x16, .f32⟩
  | 47 => ⟨S_, .i32⟩
  | 48 => ⟨S6600000, .i32⟩
  | 49 => ⟨S6600000, .i1⟩
  | 50 => ⟨S_, .i32⟩
  | 51 => ⟨S6600000, .i32⟩
  | 52 => ⟨S6600000, .i32⟩
  | 53 => ⟨S6600000, .i32⟩
  | 54 => ⟨S6600000x1, .i32⟩
  | 55 => ⟨S6600000x16, .f32⟩
  | 56 => ⟨S6600000x1, .f32⟩
  | 57 => ⟨S6600000x16, .f32⟩
  | 58 => ⟨S6600000x16, .f32⟩
  | 59 => ⟨S_, .f32⟩
  | 60 => ⟨S200000x16, .f32⟩
  | 61 => ⟨S6600000x1, .i32⟩
  | 62 => ⟨S200000x16, .f32⟩
  | 63 => ⟨S1x16, .f32⟩
  | 64 => ⟨S200000x16, .f32⟩
  | 65 => ⟨S200000x16, .f32⟩
  | 66 => ⟨S_, .f32⟩
  | 67 => ⟨S200000x16, .f32⟩
  | 68 => ⟨S200000x16, .f32⟩
  | 69 => ⟨S1x6400000, .i32⟩
  | 70 => ⟨S6400000, .i32⟩
  | 71 => ⟨S1x6400000, .i32⟩
  | 72 => ⟨S6400000, .i32⟩
  | 73 => ⟨S200000, .i32⟩
  | 74 => ⟨S6600000, .i32⟩
  | 75 => ⟨S6600000, .i32⟩
  | 76 => ⟨S_, .f32⟩
  | 77 => ⟨S6600000, .f32⟩
  | 78 => ⟨S_, .f32⟩
  | 79 => ⟨S200000, .f32⟩
  | 80 => ⟨S6600000x1, .i32⟩
  | 81 => ⟨S200000, .f32⟩
  | 82 => ⟨S_, .f32⟩
  | 83 => ⟨S200000, .f32⟩
  | 84 => ⟨S200000, .i1⟩
  | 85 => ⟨S200000, .f32⟩
  | 86 => ⟨S_, .f32⟩
  | 87 => ⟨S_, .f32⟩
  | 88 => ⟨S200000, .f32⟩
  | 89 => ⟨S200000, .f32⟩
  | 90 => ⟨S_, .i32⟩
  | 91 => ⟨S6600000, .i32⟩
  | 92 => ⟨S6600000, .i1⟩
  | 93 => ⟨S_, .i32⟩
  | 94 => ⟨S6600000, .i32⟩
  | 95 => ⟨S6600000, .i32⟩
  | 96 => ⟨S6600000, .i32⟩
  | 97 => ⟨S6600000x1, .i32⟩
  | 98 => ⟨S6600000, .f32⟩
  | 99 => ⟨S_, .i32⟩
  | 100 => ⟨S6600000, .i32⟩
  | 101 => ⟨S6600000, .i1⟩
  | 102 => ⟨S_, .i32⟩
  | 103 => ⟨S6600000, .i32⟩
  | 104 => ⟨S6600000, .i32⟩
  | 105 => ⟨S6600000, .i32⟩
  | 106 => ⟨S6600000x1, .i32⟩
  | 107 => ⟨S6600000, .f32⟩
  | 108 => ⟨S6600000, .f32⟩
  | 109 => ⟨S200000x2, .f32⟩
  | 110 => ⟨S_, .i32⟩
  | 111 => ⟨S6600000, .i32⟩
  | 112 => ⟨S6600000, .i1⟩
  | 113 => ⟨S_, .i32⟩
  | 114 => ⟨S6600000, .i32⟩
  | 115 => ⟨S6600000, .i32⟩
  | 116 => ⟨S6600000, .i32⟩
  | 117 => ⟨S6600000x1, .i32⟩
  | 118 => ⟨S6600000x2, .f32⟩
  | 119 => ⟨S6600000x1, .f32⟩
  | 120 => ⟨S6600000x2, .f32⟩
  | 121 => ⟨S6600000x2, .f32⟩
  | 122 => ⟨S_, .f32⟩
  | 123 => ⟨S200000x2, .f32⟩
  | 124 => ⟨S6600000x1, .i32⟩
  | 125 => ⟨S200000x2, .f32⟩
  | 126 => ⟨S1x2, .f32⟩
  | 127 => ⟨S200000x2, .f32⟩
  | _ => ⟨S200000x165, .f32⟩

abbrev hbmTy0_1 (i : Nat) : BufTy := match i % 128 with
  | 0 => ⟨S200000x2, .f32⟩
  | _ => ⟨S200000x165, .f32⟩

abbrev hbmTy (i : Nat) : BufTy := match i / 128 with
  | 0 => hbmTy0_0 i
  | 1 => hbmTy0_1 i
  | _ => ⟨S200000x165, .f32⟩

abbrev bufTy : (tb : Table) → Fin (tcTables nBuf tb) → BufTy
  | .hbm, ⟨i, _⟩ => hbmTy i
  | _, _ => ⟨S200000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x165_S165x16_S200000x16_1_0_0_1_n_n_wf : DotDims.WF S200000x165 S165x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x2_S200000x2_1_0_0_1_n_n_wf : DotDims.WF S200000x16 S16x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x165_S165x16_S200000x16_1_0_0_1_n_n : DotDims S200000x165 S165x16 S200000x16 where
  lhsContracting := [1]
  rhsContracting := [0]
  lhsNonContracting := [0]
  rhsNonContracting := [1]
  lhsBatch := []
  rhsBatch := []
  wf := dot_S200000x165_S165x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

class Facts : Prop extends Facts₀ where

variable [Facts]
-- ==== Proof.WholeRun.lean ====
/-
  The idealized kernel program's run, with the contents of EVERY buffer the program owns kept in the conclusion.

  The program is twelve segments in a row — host stretches and four tiled regions.  The contents of core `c`'s buffers
  at each boundary are a fold from the launch memory: a host stretch applies its operations, a region replaces its
  arrays by what its write-backs leave and keeps every other buffer.  Every weakly fair execution terminates without
  a fault in a state where each buffer holds the last boundary's contents; in particular the result buffer does, and
  the six argument arrays are as launched.
-/
import proofs.«141136_j65008624993013_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer the program owns at the contents the
    fold of its segments leaves there. -/
theorem everyBuffer : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run, read at the result buffer and at the six argument arrays. -/
theorem result : θ_run defs (onTc (τ := τ) (main (F := F))) ⟨m, fun _ => 0, ρ⟩ (fun r => ∀ c : Dev nD,
      r.2.mem ((c.tc : Thread nD τ).loc main_v61) = W12 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v61 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c)⟩)
    (everyBuffer m ρ)

end Cert.KernelIdeal.WholeRun

end
-- ==== Proof.Stages.lean ====
/-
  A two-layer graph convolution, stage by stage, as whole-array functions of the six arguments on the extended reals.

  The edge list `e : [2, 6400000]` gives each edge's source (row 0) and target (row 1); a self-loop is appended for each
  of the 200000 nodes, giving 6600000 edges.  A node's degree is the number of edges arriving at it (a scatter-add of
  ones), its weight `1 / sqrt(degree)` where the degree is positive and `0` elsewhere, and an edge's normalisation the
  product of its two endpoints' weights.  A layer multiplies the node features by a weight matrix, gathers the row of
  each edge's source, scales it by the edge's normalisation, sums the scaled rows arriving at each target node, and adds
  a bias.  Between the two layers negative entries are replaced by zero.

  Negative indices count from the end: an index below zero has the number of nodes added to it before it is used to
  gather a row.
-/
import proofs.«141136_j65008624993013_2_alg».proof.Proof.Gen.ReferenceIdeal
import Idealize.ShloMosaic.PureOps.Ideal

noncomputable section

namespace Cert.ReferenceIdeal.Stages

open Idealize.ShloMosaic Cert.ReferenceIdeal Cert.ReferenceIdeal.Facts₀ Cert.ReferenceIdeal.Facts

/-- An array of 32-bit integers of shape `s`. -/
abbrev IArr (s : Shape) : Type := IVec s 32
/-- An array of extended reals of shape `s`. -/
abbrev FArr (s : Shape) : Type := FVec Ideal s .f32

/-- Each edge's source node, then each node once (its self-loop). -/
def src (e : IArr S2x6400000) : IArr S6600000 :=
  concatenate S6600000 0 [⟨S6400000, shapeCast S6400000 (extractStridedSlice S1x6400000 ![0, 0] e slices_S2x6400000_S1x6400000_0_0) shapeCasts_S1x6400000_S6400000⟩, ⟨S200000, iotaInDim S200000 32 0⟩] concatenates_S6400000_S200000_S6600000_d0

/-- Each edge's target node, then each node once (its self-loop). -/
def dst (e : IArr S2x6400000) : IArr S6600000 :=
  concatenate S6600000 0 [⟨S6400000, shapeCast S6400000 (extractStridedSlice S1x6400000 ![1, 0] e slices_S2x6400000_S1x6400000_1_0) shapeCasts_S1x6400000_S6400000⟩, ⟨S200000, iotaInDim S200000 32 0⟩] concatenates_S6400000_S200000_S6600000_d0

/-- The number of edges arriving at each node: ones summed at the targets. -/
def degree (e : IArr S2x6400000) : FArr S200000 :=
  Host.scatterAdd scatter_S200000_S6600000x1_S6600000_n_0_0_1
    (broadcastInDim S200000 ![] bcast_S_S200000 (constant (F := Ideal) S_ .f32 0x00000000#32))
    (broadcastInDim S6600000x1 ![0] bcast_S6600000_S6600000x1_0 (dst e))
    (broadcastInDim S6600000 ![] bcast_S_S6600000 (constant (F := Ideal) S_ .f32 0x3F800000#32))

/-- A node's weight: `1 / sqrt(degree)` where the degree is positive, zero elsewhere. -/
def nodeWeight (e : IArr S2x6400000) : FArr S200000 :=
  select (cmpf (F := Ideal) .ogt (degree e) (broadcastInDim S200000 ![] bcast_S_S200000 (constant (F := Ideal) S_ .f32 0x00000000#32)))
    (Host.rsqrt (degree e))
    (broadcastInDim S200000 ![] bcast_S_S200000 (id (constant (F := Ideal) S_ .f32 0x00000000#32)))

/-- A vector of node indices as the column of rows to gather: an index below zero counts from the end. -/
def rowOf (idx : IArr S6600000) : IArr S6600000x1 :=
  broadcastInDim S6600000x1 ![0] bcast_S6600000_S6600000x1_0
    (select (cmpi .slt idx (broadcastInDim S6600000 ![] bcast_S_S6600000 (constantI S_ 32 0#32)))
      (addi idx (broadcastInDim S6600000 ![] bcast_S_S6600000 (constantI S_ 32 200000#32))) idx)

/-- The product of the two endpoints' weights, edge by edge, from the weights and the two index vectors. -/
def normOf (wt : FArr S200000) (s d : IArr S6600000) : FArr S6600000 :=
  mulf (Host.gather gather_S200000_S6600000x1_S6600000_n_0_n_n_0_1_1 wt (rowOf s))
    (Host.gather gather_S200000_S6600000x1_S6600000_n_0_n_n_0_1_1 wt (rowOf d))

/-- An edge's normalisation: the product of its source's and its target's weights. -/
def edgeNorm (e : IArr S2x6400000) : FArr S6600000 :=
  normOf (nodeWeight e) (src e) (dst e)

/-! ## The first layer (16 features) -/

/-- The node features multiplied by the first weight matrix. -/
def transformed (x : FArr S200000x165) (w1 : FArr S165x16) : FArr S200000x16 :=
  Host.dotGeneral dot_S200000x165_S165x16_S200000x16_1_0_0_1_n_n none x w1

/-- The rows of `h` named by an index vector. -/
def gatherRows16 (h : FArr S200000x16) (s : IArr S6600000) : FArr S6600000x16 :=
  Host.gather gather_S200000x16_S6600000x1_S6600000x16_1_0_n_n_0_1_116 h (rowOf s)

/-- The transformed features' row of each edge's source. -/
def gathered16 (h : FArr S200000x16) (e : IArr S2x6400000) : FArr S6600000x16 :=
  gatherRows16 h (src e)

/-- Each edge's message: its source's row scaled by the edge's normalisation. -/
def messages16 (h : FArr S200000x16) (e : IArr S2x6400000) : FArr S6600000x16 :=
  mulf (gathered16 h e)
    (broadcastInDim S6600000x16 ![0, 1] bcast_S6600000x1_S6600000x16_0_1 (broadcastInDim S6600000x1 ![0] bcast_S6600000_S6600000x1_0 (edgeNorm e)))

/-- Rows summed at the nodes an index vector names, plus the bias. -/
def sumAt16 (msg : FArr S6600000x16) (d : IArr S6600000) (b : FArr S16) : FArr S200000x16 :=
  addf (Host.scatterAdd scatter_S200000x16_S6600000x1_S6600000x16_1_0_0_1
      (broadcastInDim S200000x16 ![] bcast_S_S200000x16 (constant (F := Ideal) S_ .f32 0x00000000#32))
      (broadcastInDim S6600000x1 ![0] bcast_S6600000_S6600000x1_0 d) msg)
    (broadcastInDim S200000x16 ![0, 1] bcast_S1x16_S200000x16_0_1 (broadcastInDim S1x16 ![1] bcast_S16_S1x16_1 b))

/-- The messages summed at their targets, plus the bias. -/
def aggregate16 (msg : FArr S6600000x16) (e : IArr S2x6400000) (b : FArr S16) : FArr S200000x16 :=
  sumAt16 msg (dst e) b

/-- Negative entries replaced by zero. -/
def clamp16 (x : FArr S200000x16) : FArr S200000x16 :=
  maximumf x (broadcastInDim S200000x16 ![] bcast_S_S200000x16 (constant (F := Ideal) S_ .f32 0x00000000#32))

/-- The hidden features: the first layer's output with negative entries replaced by zero. -/
def hidden (x : FArr S200000x165) (e : IArr S2x6400000) (w1 : FArr S165x16) (b1 : FArr S16) : FArr S200000x16 :=
  clamp16 (aggregate16 (messages16 (transformed x w1) e) e b1)

/-! ## The second layer (2 features) -/

/-- The rows of `h` named by an index vector. -/
def gatherRows2 (h : FArr S200000x2) (s : IArr S6600000) : FArr S6600000x2 :=
  Host.gather gather_S200000x2_S6600000x1_S6600000x2_1_0_n_n_0_1_12 h (rowOf s)

/-- The transformed features' row of each edge's source. -/
def gathered2 (h : FArr S200000x2) (e : IArr S2x6400000) : FArr S6600000x2 :=
  gatherRows2 h (src e)

/-- Each edge's message: its source's row scaled by the edge's normalisation. -/
def messages2 (h : FArr S200000x2) (e : IArr S2x6400000) : FArr S6600000x2 :=
  mulf (gathered2 h e)
    (broadcastInDim S6600000x2 ![0, 1] bcast_S6600000x1_S6600000x2_0_1 (broadcastInDim S6600000x1 ![0] bcast_S6600000_S6600000x1_0 (edgeNorm e)))

/-- Rows summed at the nodes an index vector names, plus the bias. -/
def sumAt2 (msg : FArr S6600000x2) (d : IArr S6600000) (b : FArr S2) : FArr S200000x2 :=
  addf (Host.scatterAdd scatter_S200000x2_S6600000x1_S6600000x2_1_0_0_1
      (broadcastInDim S200000x2 ![] bcast_S_S200000x2 (constant (F := Ideal) S_ .f32 0x00000000#32))
      (broadcastInDim S6600000x1 ![0] bcast_S6600000_S6600000x1_0 d) msg)
    (broadcastInDim S200000x2 ![0, 1] bcast_S1x2_S200000x2_0_1 (broadcastInDim S1x2 ![1] bcast_S2_S1x2_1 b))

/-- The messages summed at their targets, plus the bias. -/
def aggregate2 (msg : FArr S6600000x2) (e : IArr S2x6400000) (b : FArr S2) : FArr S200000x2 :=
  sumAt2 msg (dst e) b

/-- The second layer's transformed features. -/
def projected (x : FArr S200000x165) (e : IArr S2x6400000) (w1 : FArr S165x16) (b1 : FArr S16) (w2 : FArr S16x2) : FArr S200000x2 :=
  Host.dotGeneral dot_S200000x16_S16x2_S200000x2_1_0_0_1_n_n none (hidden x e w1 b1) w2

/-- The network's output. -/
def output (x : FArr S200000x165) (e : IArr S2x6400000) (w1 : FArr S165x16) (b1 : FArr S16) (w2 : FArr S16x2) (b2 : FArr S2) :
    FArr S200000x2 :=
  aggregate2 (messages2 (projected x e w1 b1 w2) e) e b2

end Cert.ReferenceIdeal.Stages

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«141136_j65008624993013_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.LibColumnBroadcast.lean ====
/-
  One column broadcast over many.

  A keepdims column `[a, 1]` broadcast to `[a, b]` holds, at `(p, c)`, the column's entry of row `p`: the operand's second
  axis is a unit axis, so the broadcast reads it at `0`, and the first axis is carried along.
-/
import Idealize.ShloMosaic.Lib.Pipeline.Value
import Idealize.ShloMosaic.Lib.ValueIdx

namespace Idealize.ShloMosaic.LibColumnBroadcast

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumnBroadcast
-- ==== Proof.LibMatProdRowScale.lean ====
/-
  A matrix product and a row-by-row scaling as whole-array functions, index by index on the extended reals, with the host
  spellings of each: a one-axis `dot_general` IS the product (`dotGeneral_eq_matProd`); a product with the vector of row
  scalars broadcast along a new unit axis and repeated IS the scaling (`mul_bcast_bcast_eq_rowScale`); the scalars reshaped
  into a column are the column of scalars (`colScale_shapeCast`).  For kernels that tile either step by rows.

  * `matProd x w`: the product of an `[M, K]` array by a `[K, N]` array — entry `(p, q)` is the sum over `k` of
    `x (p, k) * w (k, q)`.  A row block of the product depends on the same row block of `x` and on all of `w`, so the
    product can be computed block of rows by block of rows; a one-axis `dot_general` of the whole arrays is the same sum.
  * `rowScale g s`: every row `e` of an `[E, D]` array multiplied by that row's scalar `s e` — entry `(e, j)` is
    `g (e, j) * s e`.  Row `e` of the result depends on row `e` of `g` and on `s e` only.  The scalars may be laid out as
    a column `[E, 1]` (a reshape of the vector, or the vector broadcast along a new unit axis: the same column) which is
    then repeated along the second axis.
-/
import Idealize.ShloMosaic.PureOps.Ideal
import Idealize.ShloMosaic.PureOps.Ideal.Laws
import Idealize.ShloMosaic.Lib.ValueIdx
import Idealize.ShloMosaic.Lib.Pipeline.Value
import proofs.«141136_j65008624993013_2_alg».proof.Proof.LibMatmul2
import proofs.«141136_j65008624993013_2_alg».proof.Proof.LibColumn
import proofs.«141136_j65008624993013_2_alg».proof.Proof.LibColumnBroadcast

noncomputable section

open scoped BigOperators

namespace Idealize.ShloMosaic.LibMatProdRowScale

open Idealize.ShloMosaic Idealize.ShloMosaic.ValueIdx

/-- The matrix product, entry by entry. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

theorem matProd_apply {M K N : Nat} (x : (⟨2, ![M, K]⟩ : Shape).Idx → EReal) (w : (⟨2, ![K, N]⟩ : Shape).Idx → EReal)
    (p : Fin M) (q : Fin N) : matProd x w (ix2 p q) = ∑ k : Fin K, x (ix2 p k) * w (ix2 k q) := rfl

/-- Each row multiplied by its own scalar. -/
def rowScale {E D : Nat} (g : (⟨2, ![E, D]⟩ : Shape).Idx → EReal) (s : (⟨1, ![E]⟩ : Shape).Idx → EReal) :
    (⟨2, ![E, D]⟩ : Shape).Idx → EReal :=
  fun i => g i * s (ix1 (⟨(i 0).val, idx2_lt0 i⟩ : Fin E))

theorem rowScale_apply {E D : Nat} (g : (⟨2, ![E, D]⟩ : Shape).Idx → EReal) (s : (⟨1, ![E]⟩ : Shape).Idx → EReal)
    (e : Fin E) (j : Fin D) : rowScale g s (ix2 e j) = g (ix2 e j) * s (ix1 e) := rfl

/-- Each row multiplied by its own scalar, the scalars laid out as a column `[E, 1]`. -/
def colScale {E D : Nat} (g : (⟨2, ![E, D]⟩ : Shape).Idx → EReal) (col : (⟨2, ![E, 1]⟩ : Shape).Idx → EReal) :
    (⟨2, ![E, D]⟩ : Shape).Idx → EReal :=
  fun i => g i * col (ix2 (⟨(i 0).val, idx2_lt0 i⟩ : Fin E) (0 : Fin 1))

theorem colScale_apply {E D : Nat} (g : (⟨2, ![E, D]⟩ : Shape).Idx → EReal) (col : (⟨2, ![E, 1]⟩ : Shape).Idx → EReal)
    (e : Fin E) (j : Fin D) : colScale g col (ix2 e j) = g (ix2 e j) * col (ix2 e (0 : Fin 1)) := rfl

/-- The vector of row scalars reshaped into a column is the column of row scalars. -/
theorem colScale_shapeCast {E D : Nat} (g : (⟨2, ![E, D]⟩ : Shape).Idx → EReal) (s : (⟨1, ![E]⟩ : Shape).Idx → EReal)
    (h : (⟨1, ![E]⟩ : Shape).ShapeCasts ⟨2, ![E, 1]⟩) : colScale g (shapeCast ⟨2, ![E, 1]⟩ s h) = rowScale g s := by
  funext i
  obtain ⟨e, j, rfl⟩ : ∃ (e : Fin E) (j : Fin D), i = ix2 e j := ⟨i 0, i 1, eq_ix2 i⟩
  rw [colScale_apply, rowScale_apply, LibColumn.shapeCast_a_a1_apply]

/-- The host's one-axis `dot_general` of an `[M, K]` array by a `[K, N]` array is the matrix product. -/
theorem dotGeneral_eq_matProd {M K N : Nat} {φ₁ φ₂ : FTy} (D : DotDims ⟨2, ![M, K]⟩ ⟨2, ![K, N]⟩ ⟨2, ![M, N]⟩)
    (hr : D.contr.rank = 1) (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) :
    Host.dotGeneral D prec x y = matProd x y := by
  funext i
  obtain ⟨p, q, rfl⟩ : ∃ (p : Fin M) (q : Fin N), i = ix2 p q := ⟨i 0, i 1, eq_ix2 i⟩
  exact LibMatmul2.dotGeneral_apply D hr hs hlc hrc hl0 hr1 prec x y p q

/-- The vector of row scalars broadcast along a new unit axis, then repeated along that axis, multiplies each row by its
    scalar. -/
theorem mul_bcast_bcast_eq_rowScale {E D : Nat}
    (h1 : (⟨1, ![E]⟩ : Shape).BroadcastsInDim ⟨2, ![E, 1]⟩ ![0])
    (h2 : (⟨2, ![E, 1]⟩ : Shape).BroadcastsInDim ⟨2, ![E, D]⟩ ![0, 1])
    (g : FVec Ideal ⟨2, ![E, D]⟩ .f32) (s : FVec Ideal ⟨1, ![E]⟩ .f32) :
    mulf g (broadcastInDim ⟨2, ![E, D]⟩ ![0, 1] h2 (broadcastInDim ⟨2, ![E, 1]⟩ ![0] h1 s)) = rowScale g s := by
  funext i
  obtain ⟨e, j, rfl⟩ : ∃ (e : Fin E) (j : Fin D), i = ix2 e j := ⟨i 0, i 1, eq_ix2 i⟩
  rw [rowScale_apply]
  show g (ix2 e j) * _ = _
  refine congrArg (g (ix2 e j) * ·) ?_
  rw [broadcastInDim_apply ![0, 1] h2 _ (ix2 e j) (ix2 e (0 : Fin 1)) (fun a => by
    match a with
    | ⟨0, _⟩ =>
      show e.val = if E = 1 then 0 else e.val
      split
      · have := e.isLt; omega
      · rfl
    | ⟨1, _⟩ => rfl)]
  exact broadcastInDim_apply ![0] h1 s (ix2 e (0 : Fin 1)) (ix1 e) (fun a => by
    match a with
    | ⟨0, _⟩ =>
      show e.val = if E = 1 then 0 else e.val
      split
      · have := e.isLt; omega
      · rfl)

end Idealize.ShloMosaic.LibMatProdRowScale

end
-- ==== Proof.Carry.lean ====
/-
  Buffers no later segment writes keep their contents.

  The source and target index vectors of the edge list (with the self-loops appended), the column of edge
  normalisations, and the bias and weight arguments are all in place when the first tiled region is entered.  No host
  operation after that point writes them and no region has one of them as its output array, so at every later boundary
  of the program each still holds what it held at the first region's entry.
-/
import proofs.«141136_j65008624993013_2_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- The source indices when the first layer's rows are gathered. -/
theorem src_at4 : W4 m ρ c (Proc.devRef .tc main_v5) = W3 m ρ c (Proc.devRef .tc main_v5) :=
  (W4_of_ne m ρ c main_v5 (by decide))

/-- The source indices when the second layer's rows are gathered. -/
theorem src_at9 : W9 m ρ c (Proc.devRef .tc main_v5) = W3 m ρ c (Proc.devRef .tc main_v5) :=
  ((W9_of_ne m ρ c main_v5 (by decide))).trans
    (((show W8 m ρ c (Proc.devRef .tc main_v5) = W6 m ρ c (Proc.devRef .tc main_v5) from by
      show StableHlo.after hostOps2_1 (StableHlo.after hostOps2 (W6 m ρ c)) (Proc.devRef .tc main_v5) = _
      after_results)).trans
    (((W6_of_ne m ρ c main_v5 (by decide))).trans
    (((show W5 m ρ c (Proc.devRef .tc main_v5) = W4 m ρ c (Proc.devRef .tc main_v5) from by
      show StableHlo.after hostOps1 (W4 m ρ c) (Proc.devRef .tc main_v5) = _
      after_results)).trans
    ((W4_of_ne m ρ c main_v5 (by decide))))))

/-- The target indices when the first layer's messages are summed. -/
theorem dst_at6 : W6 m ρ c (Proc.devRef .tc main_v6) = W3 m ρ c (Proc.devRef .tc main_v6) :=
  ((W6_of_ne m ρ c main_v6 (by decide))).trans
    (((show W5 m ρ c (Proc.devRef .tc main_v6) = W4 m ρ c (Proc.devRef .tc main_v6) from by
      show StableHlo.after hostOps1 (W4 m ρ c) (Proc.devRef .tc main_v6) = _
      after_results)).trans
    ((W4_of_ne m ρ c main_v6 (by decide))))

/-- The target indices when the second layer's messages are summed. -/
theorem dst_at11 : W11 m ρ c (Proc.devRef .tc main_v6) = W3 m ρ c (Proc.devRef .tc main_v6) :=
  ((W11_of_ne m ρ c main_v6 (by decide))).trans
    (((show W10 m ρ c (Proc.devRef .tc main_v6) = W9 m ρ c (Proc.devRef .tc main_v6) from by
      show StableHlo.after hostOps3 (W9 m ρ c) (Proc.devRef .tc main_v6) = _
      after_results)).trans
    (((W9_of_ne m ρ c main_v6 (by decide))).trans
    (((show W8 m ρ c (Proc.devRef .tc main_v6) = W6 m ρ c (Proc.devRef .tc main_v6) from by
      show StableHlo.after hostOps2_1 (StableHlo.after hostOps2 (W6 m ρ c)) (Proc.devRef .tc main_v6) = _
      after_results)).trans
    (((W6_of_ne m ρ c main_v6 (by decide))).trans
    (((show W5 m ρ c (Proc.devRef .tc main_v6) = W4 m ρ c (Proc.devRef .tc main_v6) from by
      show StableHlo.after hostOps1 (W4 m ρ c) (Proc.devRef .tc main_v6) = _
      after_results)).trans
    ((W4_of_ne m ρ c main_v6 (by decide))))))))

/-- The column of edge normalisations at the first scaling region's entry. -/
theorem norm_at5 : W5 m ρ c (Proc.devRef .tc main_v30) = W3 m ρ c (Proc.devRef .tc main_v30) :=
  ((show W5 m ρ c (Proc.devRef .tc main_v30) = W4 m ρ c (Proc.devRef .tc main_v30) from by
      show StableHlo.after hostOps1 (W4 m ρ c) (Proc.devRef .tc main_v30) = _
      after_results)).trans
    ((W4_of_ne m ρ c main_v30 (by decide)))

/-- The column of edge normalisations at the second scaling region's entry: on the way it is an input of the first scaling region, which reads it and leaves it as it was. -/
theorem norm_at10 : W10 m ρ c (Proc.devRef .tc main_v30) = W3 m ρ c (Proc.devRef .tc main_v30) :=
  ((show W10 m ρ c (Proc.devRef .tc main_v30) = W9 m ρ c (Proc.devRef .tc main_v30) from by
      show StableHlo.after hostOps3 (W9 m ρ c) (Proc.devRef .tc main_v30) = _
      after_results)).trans
    (((W9_of_ne m ρ c main_v30 (by decide))).trans
    (((show W8 m ρ c (Proc.devRef .tc main_v30) = W6 m ρ c (Proc.devRef .tc main_v30) from by
      show StableHlo.after hostOps2_1 (StableHlo.after hostOps2 (W6 m ρ c)) (Proc.devRef .tc main_v30) = _
      after_results)).trans
    (((show W6 m ρ c (Proc.devRef .tc main_v30) = W5 m ρ c (Proc.devRef .tc main_v30) from
      (W6_arr m ρ c 1).trans (((dat1 (V5 m ρ) c).arrAt_in 1 rfl _).trans (A_eq1 (V5 m ρ) c 1)))).trans
    (((show W5 m ρ c (Proc.devRef .tc main_v30) = W4 m ρ c (Proc.devRef .tc main_v30) from by
      show StableHlo.after hostOps1 (W4 m ρ c) (Proc.devRef .tc main_v30) = _
      after_results)).trans
    ((W4_of_ne m ρ c main_v30 (by decide)))))))

/-- The first layer's bias when it is added. -/
theorem bias1_at6 : W6 m ρ c (Proc.devRef .tc main_arg3) = W3 m ρ c (Proc.devRef .tc main_arg3) :=
  ((W6_of_ne m ρ c main_arg3 (by decide))).trans
    (((show W5 m ρ c (Proc.devRef .tc main_arg3) = W4 m ρ c (Proc.devRef .tc main_arg3) from by
      show StableHlo.after hostOps1 (W4 m ρ c) (Proc.devRef .tc main_arg3) = _
      after_results)).trans
    ((W4_of_ne m ρ c main_arg3 (by decide))))

/-- The second layer's weights at the second product region's entry. -/
theorem weight2_at8 : W8 m ρ c (Proc.devRef .tc main_arg4) = W3 m ρ c (Proc.devRef .tc main_arg4) :=
  ((show W8 m ρ c (Proc.devRef .tc main_arg4) = W6 m ρ c (Proc.devRef .tc main_arg4) from by
      show StableHlo.after hostOps2_1 (StableHlo.after hostOps2 (W6 m ρ c)) (Proc.devRef .tc main_arg4) = _
      after_results)).trans
    (((W6_of_ne m ρ c main_arg4 (by decide))).trans
    (((show W5 m ρ c (Proc.devRef .tc main_arg4) = W4 m ρ c (Proc.devRef .tc main_arg4) from by
      show StableHlo.after hostOps1 (W4 m ρ c) (Proc.devRef .tc main_arg4) = _
      after_results)).trans
    ((W4_of_ne m ρ c main_arg4 (by decide)))))

/-- The second layer's bias when it is added. -/
theorem bias2_at11 : W11 m ρ c (Proc.devRef .tc main_arg5) = W3 m ρ c (Proc.devRef .tc main_arg5) :=
  ((W11_of_ne m ρ c main_arg5 (by decide))).trans
    (((show W10 m ρ c (Proc.devRef .tc main_arg5) = W9 m ρ c (Proc.devRef .tc main_arg5) from by
      show StableHlo.after hostOps3 (W9 m ρ c) (Proc.devRef .tc main_arg5) = _
      after_results)).trans
    (((W9_of_ne m ρ c main_arg5 (by decide))).trans
    (((show W8 m ρ c (Proc.devRef .tc main_arg5) = W6 m ρ c (Proc.devRef .tc main_arg5) from by
      show StableHlo.after hostOps2_1 (StableHlo.after hostOps2 (W6 m ρ c)) (Proc.devRef .tc main_arg5) = _
      after_results)).trans
    (((W6_of_ne m ρ c main_arg5 (by decide))).trans
    (((show W5 m ρ c (Proc.devRef .tc main_arg5) = W4 m ρ c (Proc.devRef .tc main_arg5) from by
      show StableHlo.after hostOps1 (W4 m ρ c) (Proc.devRef .tc main_arg5) = _
      after_results)).trans
    ((W4_of_ne m ρ c main_arg5 (by decide))))))))
end Cert.KernelIdeal.Carry

end
-- ==== Proof.Entry.lean ====
/-
  What the host computes before the first tiled region, as stages of the graph convolution of the launch arguments.

  The operations before the first region come in three stretches.  The first slices the edge list into sources and
  targets, appends a self-loop per node, counts the edges arriving at each node, and takes the reciprocal square root
  of the counts and the mask of positive counts; the second selects, node by node, the reciprocal square root where the
  count is positive and zero elsewhere; the third normalises negative indices, gathers each edge's two endpoint
  weights, multiplies them and lays the products out as a column.  Each stretch's results are functions of a few
  of the buffers the stretch starts from, whatever those hold; the three compose.
-/
import proofs.«141136_j65008624993013_2_alg».proof.Proof.Gen.KernelIdeal.Frame
import proofs.«141136_j65008624993013_2_alg».proof.Proof.Stages

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

/-! ## The first stretch: endpoints, degrees -/

section First
variable (B : Valuation τ sig (Elt Ideal))

theorem first_src : after hostOps0 B (Proc.devRef .tc main_v5) = Cert.ReferenceIdeal.Stages.src (B (Proc.devRef .tc main_arg1)) := by
  after_results
  rfl

theorem first_dst : after hostOps0 B (Proc.devRef .tc main_v6) = Cert.ReferenceIdeal.Stages.dst (B (Proc.devRef .tc main_arg1)) := by
  after_results
  rfl

theorem first_degree : after hostOps0 B (Proc.devRef .tc main_v10) = Cert.ReferenceIdeal.Stages.degree (B (Proc.devRef .tc main_arg1)) := by
  after_results
  rfl

/-- The mask of positive degrees. -/
theorem first_mask : after hostOps0 B (Proc.devRef .tc main_v12)
    = cmpf (F := Ideal) .ogt (Cert.ReferenceIdeal.Stages.degree (B (Proc.devRef .tc main_arg1))) (broadcastInDim Cert.ReferenceIdeal.S200000 ![] Cert.ReferenceIdeal.Facts₀.bcast_S_S200000 (constant (F := Ideal) Cert.ReferenceIdeal.S_ .f32 0x00000000#32)) := by
  after_results
  rfl

theorem first_rsqrt : after hostOps0 B (Proc.devRef .tc main_v13) = Host.rsqrt (Cert.ReferenceIdeal.Stages.degree (B (Proc.devRef .tc main_arg1))) := by
  after_results
  rfl

theorem first_zero : after hostOps0 B (Proc.devRef .tc main_cst_2) = constant (F := Ideal) Cert.ReferenceIdeal.S_ .f32 0x00000000#32 := by
  after_results <;> rfl

theorem first_arg0 : after hostOps0 B (Proc.devRef .tc main_arg0) = (B (Proc.devRef .tc main_arg0)) := by
  after_results <;> rfl
theorem first_arg2 : after hostOps0 B (Proc.devRef .tc main_arg2) = (B (Proc.devRef .tc main_arg2)) := by
  after_results <;> rfl
theorem first_arg3 : after hostOps0 B (Proc.devRef .tc main_arg3) = (B (Proc.devRef .tc main_arg3)) := by
  after_results <;> rfl
theorem first_arg4 : after hostOps0 B (Proc.devRef .tc main_arg4) = (B (Proc.devRef .tc main_arg4)) := by
  after_results <;> rfl
theorem first_arg5 : after hostOps0 B (Proc.devRef .tc main_arg5) = (B (Proc.devRef .tc main_arg5)) := by
  after_results <;> rfl
end First

/-! ## The second stretch: the node weights -/

section Second
variable (B : Valuation τ sig (Elt Ideal))

theorem second_weight : after hostOps0_1 B (Proc.devRef .tc main_v14)
    = select (B (Proc.devRef .tc main_v12)) (B (Proc.devRef .tc main_v13)) (broadcastInDim Cert.ReferenceIdeal.S200000 ![] Cert.ReferenceIdeal.Facts₀.bcast_S_S200000 (id (B (Proc.devRef .tc main_cst_2)))) := by
  after_results
  rfl

theorem second_keep_v5 : after hostOps0_1 B (Proc.devRef .tc main_v5) = (B (Proc.devRef .tc main_v5)) := by
  after_results <;> rfl
theorem second_keep_v6 : after hostOps0_1 B (Proc.devRef .tc main_v6) = (B (Proc.devRef .tc main_v6)) := by
  after_results <;> rfl
theorem second_keep_arg0 : after hostOps0_1 B (Proc.devRef .tc main_arg0) = (B (Proc.devRef .tc main_arg0)) := by
  after_results <;> rfl
theorem second_keep_arg2 : after hostOps0_1 B (Proc.devRef .tc main_arg2) = (B (Proc.devRef .tc main_arg2)) := by
  after_results <;> rfl
theorem second_keep_arg3 : after hostOps0_1 B (Proc.devRef .tc main_arg3) = (B (Proc.devRef .tc main_arg3)) := by
  after_results <;> rfl
theorem second_keep_arg4 : after hostOps0_1 B (Proc.devRef .tc main_arg4) = (B (Proc.devRef .tc main_arg4)) := by
  after_results <;> rfl
theorem second_keep_arg5 : after hostOps0_1 B (Proc.devRef .tc main_arg5) = (B (Proc.devRef .tc main_arg5)) := by
  after_results <;> rfl
end Second

/-! ## The third stretch: the edges' normalisations, as a column -/

section Third
variable (B : Valuation τ sig (Elt Ideal))

theorem third_norm : after hostOps0_2 B (Proc.devRef .tc main_v30)
    = shapeCast S6600000x1 (Cert.ReferenceIdeal.Stages.normOf (B (Proc.devRef .tc main_v14)) (B (Proc.devRef .tc main_v5)) (B (Proc.devRef .tc main_v6))) Gen.shapeCasts_S6600000_S6600000x1 := by
  after_results_simp <;> rfl

theorem third_keep_v5 : after hostOps0_2 B (Proc.devRef .tc main_v5) = (B (Proc.devRef .tc main_v5)) := by
  after_results <;> rfl
theorem third_keep_v6 : after hostOps0_2 B (Proc.devRef .tc main_v6) = (B (Proc.devRef .tc main_v6)) := by
  after_results <;> rfl
theorem third_keep_arg0 : after hostOps0_2 B (Proc.devRef .tc main_arg0) = (B (Proc.devRef .tc main_arg0)) := by
  after_results <;> rfl
theorem third_keep_arg2 : after hostOps0_2 B (Proc.devRef .tc main_arg2) = (B (Proc.devRef .tc main_arg2)) := by
  after_results <;> rfl
theorem third_keep_arg3 : after hostOps0_2 B (Proc.devRef .tc main_arg3) = (B (Proc.devRef .tc main_arg3)) := by
  after_results <;> rfl
theorem third_keep_arg4 : after hostOps0_2 B (Proc.devRef .tc main_arg4) = (B (Proc.devRef .tc main_arg4)) := by
  after_results <;> rfl
theorem third_keep_arg5 : after hostOps0_2 B (Proc.devRef .tc main_arg5) = (B (Proc.devRef .tc main_arg5)) := by
  after_results <;> rfl
end Third

/-! ## At the first region's entry -/

variable (m : (ℓ : Loc nD τ sig) → Buf (Elt Ideal) ℓ) (ρ : Dev nD → PrngReg) (c : Dev nD)

theorem entry_src : W3 m ρ c (Proc.devRef .tc main_v5) = Cert.ReferenceIdeal.Stages.src (m ((c.tc : Thread nD τ).loc main_arg1)) :=
  (third_keep_v5 (W2 m ρ c)).trans ((second_keep_v5 (W1 m ρ c)).trans (first_src (W0 m ρ c)))

theorem entry_dst : W3 m ρ c (Proc.devRef .tc main_v6) = Cert.ReferenceIdeal.Stages.dst (m ((c.tc : Thread nD τ).loc main_arg1)) :=
  (third_keep_v6 (W2 m ρ c)).trans ((second_keep_v6 (W1 m ρ c)).trans (first_dst (W0 m ρ c)))

/-- The node weights, after the second stretch. -/
theorem entry_weight : W2 m ρ c (Proc.devRef .tc main_v14) = Cert.ReferenceIdeal.Stages.nodeWeight (m ((c.tc : Thread nD τ).loc main_arg1)) := by
  refine (second_weight (W1 m ρ c)).trans ?_
  rw [show W1 m ρ c (Proc.devRef .tc main_v12) = _ from first_mask (W0 m ρ c),
    show W1 m ρ c (Proc.devRef .tc main_v13) = _ from first_rsqrt (W0 m ρ c),
    show W1 m ρ c (Proc.devRef .tc main_cst_2) = _ from first_zero (W0 m ρ c)]
  rfl

/-- The column of edge normalisations: the vector of normalisations, reshaped. -/
theorem entry_norm : W3 m ρ c (Proc.devRef .tc main_v30)
    = shapeCast S6600000x1 (Cert.ReferenceIdeal.Stages.edgeNorm (m ((c.tc : Thread nD τ).loc main_arg1))) Gen.shapeCasts_S6600000_S6600000x1 := by
  refine (third_norm (W2 m ρ c)).trans ?_
  rw [entry_weight m ρ c,
    show W2 m ρ c (Proc.devRef .tc main_v5) = _ from (second_keep_v5 (W1 m ρ c)).trans (first_src (W0 m ρ c)),
    show W2 m ρ c (Proc.devRef .tc main_v6) = _ from (second_keep_v6 (W1 m ρ c)).trans (first_dst (W0 m ρ c))]
  rfl

theorem entry_arg0 : W3 m ρ c (Proc.devRef .tc main_arg0) = (m ((c.tc : Thread nD τ).loc main_arg0)) :=
  (third_keep_arg0 (W2 m ρ c)).trans ((second_keep_arg0 (W1 m ρ c)).trans (first_arg0 (W0 m ρ c)))
theorem entry_arg2 : W3 m ρ c (Proc.devRef .tc main_arg2) = (m ((c.tc : Thread nD τ).loc main_arg2)) :=
  (third_keep_arg2 (W2 m ρ c)).trans ((second_keep_arg2 (W1 m ρ c)).trans (first_arg2 (W0 m ρ c)))
theorem entry_arg3 : W3 m ρ c (Proc.devRef .tc main_arg3) = (m ((c.tc : Thread nD τ).loc main_arg3)) :=
  (third_keep_arg3 (W2 m ρ c)).trans ((second_keep_arg3 (W1 m ρ c)).trans (first_arg3 (W0 m ρ c)))
theorem entry_arg4 : W3 m ρ c (Proc.devRef .tc main_arg4) = (m ((c.tc : Thread nD τ).loc main_arg4)) :=
  (third_keep_arg4 (W2 m ρ c)).trans ((second_keep_arg4 (W1 m ρ c)).trans (first_arg4 (W0 m ρ c)))
theorem entry_arg5 : W3 m ρ c (Proc.devRef .tc main_arg5) = (m ((c.tc : Thread nD τ).loc main_arg5)) :=
  (third_keep_arg5 (W2 m ρ c)).trans ((second_keep_arg5 (W1 m ρ c)).trans (first_arg5 (W0 m ρ c)))

end Cert.KernelIdeal.Entry

end
-- ==== Proof.Between.lean ====
/-
  The host stretches between and after the tiled regions, each read over an arbitrary valuation of the buffers it
  starts from.

  Between the first product and the first scaling the host gathers each edge's source row; between the first scaling
  and the second product it sums the messages at their targets, adds the bias and replaces negative entries by zero;
  between the second product and the second scaling it gathers again; after the second scaling it sums and adds the
  second bias.  Each is a function of a few of the buffers the stretch finds, whatever those hold.
-/
import proofs.«141136_j65008624993013_2_alg».proof.Proof.Gen.KernelIdeal.Frame
import proofs.«141136_j65008624993013_2_alg».proof.Proof.Stages

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

variable (B : Valuation τ sig (Elt Ideal))

/-- Each edge's source row of the first product. -/
theorem gather1 : after hostOps1 B (Proc.devRef .tc main_v38) = Cert.ReferenceIdeal.Stages.gatherRows16 (B (Proc.devRef .tc main_v31)) (B (Proc.devRef .tc main_v5)) := by
  after_results <;> rfl

/-- The clamp at zero, as the called function's typed buffers spell it, is the clamp: the transports between a value's
    type and its buffer's type are identities. -/
theorem clampUncast (X : (main_v45 : Ref sig .tc).ty.Contents (Elt Ideal)) :
    (StableHlo.TRef.of main_v46 : StableHlo.TRef sig ⟨S200000x16, .f32⟩).toBuf (Val := Elt Ideal)
      (maximumf (F := Ideal) (s := S200000x16) (φ := .f32) ((StableHlo.TRef.of main_v45 : StableHlo.TRef sig ⟨S200000x16, .f32⟩).ofBuf (Val := Elt Ideal) X)
        ((StableHlo.TRef.of main_call1_v0 : StableHlo.TRef sig ⟨S200000x16, .f32⟩).ofBuf (Val := Elt Ideal)
          ((StableHlo.TRef.of main_call1_v0 : StableHlo.TRef sig ⟨S200000x16, .f32⟩).toBuf (Val := Elt Ideal)
            (broadcastInDim (α := Ideal .f32) S200000x16 ![] bcast_S_S200000x16
              ((StableHlo.TRef.of main_call1_cst : StableHlo.TRef sig ⟨S_, .f32⟩).ofBuf (Val := Elt Ideal)
                ((StableHlo.TRef.of main_call1_cst : StableHlo.TRef sig ⟨S_, .f32⟩).toBuf (Val := Elt Ideal) (constant (F := Ideal) S_ .f32 0x00000000#32)))))))
    = (maximumf (X : FVec Ideal S200000x16 .f32) (broadcastInDim S200000x16 ![] bcast_S_S200000x16 (constant (F := Ideal) S_ .f32 0x00000000#32))
        : FVec Ideal S200000x16 .f32) := rfl

/-- The first layer's messages summed at their targets, plus the bias, clamped at zero. -/
theorem clampSum1 : after hostOps2_1 (after hostOps2 B) (Proc.devRef .tc main_v46)
    = Cert.ReferenceIdeal.Stages.clamp16 (Cert.ReferenceIdeal.Stages.sumAt16 (B (Proc.devRef .tc main_v39)) (B (Proc.devRef .tc main_v6)) (B (Proc.devRef .tc main_arg3))) := by
  after_results
  refine (clampUncast _).trans ?_
  rfl

/-- Each edge's source row of the second product. -/
theorem gather2 : after hostOps3 B (Proc.devRef .tc main_v54) = Cert.ReferenceIdeal.Stages.gatherRows2 (B (Proc.devRef .tc main_v47)) (B (Proc.devRef .tc main_v5)) := by
  after_results <;> rfl

/-- The second layer's messages summed at their targets, plus the bias. -/
theorem sum2 : after hostOps4 B (Proc.devRef .tc main_v61) = Cert.ReferenceIdeal.Stages.sumAt2 (B (Proc.devRef .tc main_v55)) (B (Proc.devRef .tc main_v6)) (B (Proc.devRef .tc main_arg5)) := by
  after_results <;> rfl

end Cert.KernelIdeal.Between

end
-- ==== Proof.FeatureProduct.lean ====
/-
  The first layer's feature product `X · W1`, as the row-tiled region leaves it: one whole-array product.

  The product is tiled by rows: grid point `t` reads rows `8000·t … 8000·t + 7999` of the left array and the whole right
  array, and writes the same rows of the result.  Entry `(p, q)` of a block is the sum over `k` of the left block's
  `(p, k)` times the right array's `(k, q)` (the operands' change of float format is the identity on the extended reals, and
  the accumulator starts at zero), which is entry `(8000·t + p, q)` of the product of the whole arrays.  The 25 row blocks
  tile the 200000 rows — row `r` lies in block `r / 8000` — so the array ends holding the whole product.
-/
import proofs.«141136_j65008624993013_2_alg».proof.Proof.Gen.KernelIdeal.Frame
import proofs.«141136_j65008624993013_2_alg».proof.Proof.LibMatProdRowScale
import Idealize.ShloMosaic.Lib.Pipeline.Value

set_option maxRecDepth 16384

noncomputable section

open scoped BigOperators

namespace Cert.KernelIdeal.FeatureProduct

open Idealize.ShloMosaic Idealize.ShloMosaic.TcCoe Idealize.ShloMosaic.ValueIdx Idealize.SL.Sem
open Idealize.ShloMosaic.Pipeline (Dat Cfg Window)
open Cert.KernelIdeal Cert.KernelIdeal.Gen Idealize.ShloMosaic.LibMatProdRowScale

/-- The blocks' rectangles start at the origin. -/
theorem origin : (![0, 0] : Fin 2 → Nat) = fun _ => 0 := funext fun a => by fin_cases a <;> rfl

/-- Where each window's block sits at grid point `t`: the left operand's and the result's at row block `t`, the right
    operand's at the origin. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The left operand's row is the result's row: axis 0 of the left operand is a free axis. -/
theorem lhsRow (i : S8000x16.Idx) (q : dot_S8000x165_S165x16_S8000x16_1_0_0_1_n_n.contr.Idx) :
    (dot_S8000x165_S165x16_S8000x16_1_0_0_1_n_n.lhsIdx i q 0).val = (i 0).val := by
  unfold DotDims.lhsIdx
  rw [dif_neg (show ¬(0 : Fin S8000x165.rank) ∈ dot_S8000x165_S165x16_S8000x16_1_0_0_1_n_n.lhsBatch by decide), dif_pos (show (0 : Fin S8000x165.rank) ∈ dot_S8000x165_S165x16_S8000x16_1_0_0_1_n_n.lhsNonContracting by decide)]
  rfl

/-- The right operand's column is the result's column: axis 1 of the right operand is a free axis. -/
theorem rhsCol (i : S8000x16.Idx) (q : dot_S8000x165_S165x16_S8000x16_1_0_0_1_n_n.contr.Idx) :
    (dot_S8000x165_S165x16_S8000x16_1_0_0_1_n_n.rhsIdx i q 1).val = (i 1).val := by
  unfold DotDims.rhsIdx
  rw [dif_neg (show ¬(1 : Fin S165x16.rank) ∈ dot_S8000x165_S165x16_S8000x16_1_0_0_1_n_n.rhsBatch by decide), dif_pos (show (1 : Fin S165x16.rank) ∈ dot_S8000x165_S165x16_S8000x16_1_0_0_1_n_n.rhsNonContracting by decide)]
  rfl

/-- A block's product, entry by entry. -/
theorem blockProduct (x0 : Vec Ideal S8000x165 .f32) (x1 : Vec Ideal S165x16 .f32) (p : Fin 8000) (q : Fin 16) :
    k0_pay1 x0 x1 (ix2 p q) = ∑ k : Fin 165, x0 (ix2 p k) * x1 (ix2 k q) := by
  unfold k0_pay1
  exact LibMatmul2.matmul_zero_apply dot_S8000x165_S165x16_S8000x16_1_0_0_1_n_n rfl rfl rfl rfl lhsRow rhsCol none _ _ p q

/-- A block's entry is the whole product's entry in row block `T`, when the left block holds rows `8000·T …` of `X`
    and the right block is `W`. -/
theorem blockEntry (X : S200000x165.Idx → EReal) (W : S165x16.Idx → EReal)
    (x0 : Vec Ideal S8000x165 .f32) (x1 : Vec Ideal S165x16 .f32) (T : Nat) (hT : T < 25)
    (h0 : ∀ (p : Fin 8000) (k : Fin 165), x0 (ix2 p k) = X (ix2 (⟨T * 8000 + p.val, by omega⟩ : Fin 200000) k))
    (h1 : ∀ (k : Fin 165) (q : Fin 16), x1 (ix2 k q) = W (ix2 k q))
    (j : S8000x16.Idx) (i : S200000x16.Idx) (hi0 : (i 0).val = T * 8000 + (j 0).val) (hi1 : (i 1).val = (j 1).val) :
    k0_pay1 x0 x1 j = matProd X W i := by
  obtain ⟨p, q, rfl⟩ : ∃ (p : Fin 8000) (q : Fin 16), j = ix2 p q := ⟨j 0, j 1, eq_ix2 j⟩
  rw [blockProduct]
  have hi : i = ix2 (⟨T * 8000 + p.val, by omega⟩ : Fin 200000) q := by
    funext a; apply Fin.ext
    match a with
    | ⟨0, _⟩ => exact hi0
    | ⟨1, _⟩ => exact hi1
  rw [hi, matProd_apply]
  exact Finset.sum_congr rfl fun k _ => by rw [h0 p k, h1 k q]

variable (V : (c : Dev nD) → (b : Ref sig .tc) → Buf (Elt Ideal) ((c : Thread nD τ).loc b))

/-- What grid point `t` writes back is block `t` of the product of the two arrays as the region finds them. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero origin]
  simp only [View.ld_unit_zero (S := S8000x165) origin, View.ld_unit_zero (S := S165x16) origin]
  obtain ⟨e0, e1, e2, e3, e4, e5⟩ := blockIndex t
  have hN : t.val < 25 := lt_of_lt_of_eq t.isLt N_0
  funext j
  show k0_pay1 (iblk0 V c 0 t) (iblk0 V c 1 t) j = matProd (V c main_arg0) (V c main_arg2) (((cfg0.win 2).blk t).view.emb j)
  refine blockEntry (V c main_arg0) (V c main_arg2) (iblk0 V c 0 t) (iblk0 V c 1 t) t.val hN (fun p k => ?_) (fun k q => ?_) j _ ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 8000 + 1 * p.val = t.val * 8000 + p.val; omega
    | ⟨1, _⟩ => show win0_0.index t (1 : Fin 2) * 165 + 1 * k.val = k.val; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 165 + 1 * k.val = k.val; omega
    | ⟨1, _⟩ => show win0_1.index t (1 : Fin 2) * 16 + 1 * q.val = q.val; omega
  · show win0_2.index t (0 : Fin 2) * 8000 + 1 * (j 0).val = t.val * 8000 + (j 0).val; omega
  · show win0_2.index t (1 : Fin 2) * 16 + 1 * (j 1).val = (j 1).val; omega

/-- An index of the result array is in point `t`'s block iff each coordinate is in the block's range on its axis. -/
theorem mem_blk (t : Fin cfg0.N) (i : S200000x16.Idx) :
    i ∈ ((cfg0.win 2).blk t).view.set ↔ ∀ a : Fin 2, win0_2.index t a * S8000x16.size a ≤ (i a).val ∧ (i a).val < win0_2.index t a * S8000x16.size a + S8000x16.size a := by
  show i ∈ ((View.whole main_v31).slice (win0_2.rect t)).set ↔ _
  rw [View.set_slice_whole, Rect.mem_set_unit]
  exact Iff.rfl

/-- Every index of the result array lies in the block of the point its row falls in. -/
theorem cover (i : S200000x16.Idx) :
    ∃ t : Fin cfg0.N, (cfg0.win 2).flush t = true ∧ i ∈ ((cfg0.win 2).blk t).view.set := by
  have hi0 : (i 0).val < 200000 := idx2_lt0 i
  have hi1 : (i 1).val < 16 := idx2_lt1 i
  have hlt : (i 0).val / 8000 < cfg0.N := by rw [show cfg0.N = 25 from N_0]; omega
  obtain ⟨e0, e1, e2, e3, e4, e5⟩ := blockIndex ⟨(i 0).val / 8000, hlt⟩
  refine ⟨⟨(i 0).val / 8000, hlt⟩, flush0_2 _, ?_⟩
  rw [mem_blk]
  intro a
  match a with
  | ⟨0, _⟩ =>
    show win0_2.index ⟨(i 0).val / 8000, hlt⟩ (0 : Fin 2) * 8000 ≤ (i 0).val ∧ (i 0).val < win0_2.index ⟨(i 0).val / 8000, hlt⟩ (0 : Fin 2) * 8000 + 8000
    rw [e4]
    show (i 0).val / 8000 * 8000 ≤ (i 0).val ∧ (i 0).val < (i 0).val / 8000 * 8000 + 8000
    omega
  | ⟨1, _⟩ =>
    show win0_2.index ⟨(i 0).val / 8000, hlt⟩ (1 : Fin 2) * 16 ≤ (i 1).val ∧ (i 1).val < win0_2.index ⟨(i 0).val / 8000, hlt⟩ (1 : Fin 2) * 16 + 16
    rw [e5]
    omega

/-- The result array after the region: the product of the two arrays the region found. -/
theorem array (c : Dev nD) : (dat0 V c).arrAt 2 cfg0.N = matProd (V c main_arg0) (V c main_arg2) :=
  (dat0 V c).arrAt_eq_of_cover 2 (matProd (V c main_arg0) (V c main_arg2)) (fun t _ => flushed_eq V c t) cover

end Cert.KernelIdeal.FeatureProduct

end
-- ==== Proof.MessageScale.lean ====
/-
  The first layer's messages: the gathered features `[6600000, 16]`, each row scaled by its edge's normalisation.

  The scaling is tiled by rows: grid point `t` reads rows `8000·t … 8000·t + 7999` of the gathered features and the same
  rows of the column of row scalars, and writes the same rows of the result.  Entry `(p, q)` of a block is the features'
  `(p, q)` times the column's `(p, 0)` (the column is repeated along the second axis), which is entry `(8000·t + p, q)` of
  the whole array scaled row by row.  The 825 row blocks tile the 6600000 rows — row `r` lies in block `r / 8000`.
-/
import proofs.«141136_j65008624993013_2_alg».proof.Proof.Gen.KernelIdeal.Frame
import proofs.«141136_j65008624993013_2_alg».proof.Proof.LibMatProdRowScale
import Idealize.ShloMosaic.Lib.Pipeline.Value

set_option maxRecDepth 16384

noncomputable section

namespace Cert.KernelIdeal.MessageScale

open Idealize.ShloMosaic Idealize.ShloMosaic.TcCoe Idealize.ShloMosaic.ValueIdx Idealize.SL.Sem
open Idealize.ShloMosaic.Pipeline (Dat Cfg Window)
open Cert.KernelIdeal Cert.KernelIdeal.Gen Idealize.ShloMosaic.LibMatProdRowScale

/-- The blocks' rectangles start at the origin. -/
theorem origin : (![0, 0] : Fin 2 → Nat) = fun _ => 0 := funext fun a => by fin_cases a <;> rfl

/-- Where each window's block sits at grid point `t`: all three at row block `t`. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0)

/-- A block's scaling, entry by entry. -/
theorem blockScale (x0 : Vec Ideal S8000x16 .f32) (x1 : Vec Ideal S8000x1 .f32) (p : Fin 8000) (q : Fin 16) :
    k1_pay1 x0 x1 (ix2 p q) = x0 (ix2 p q) * x1 (ix2 p (0 : Fin 1)) := by
  unfold k1_pay1
  show shapeCast S8000x16 x0 shapeCasts_S8000x16_S8000x16 (ix2 p q)
      * broadcastTo S8000x16 (shapeCast S8000x1 x1 shapeCasts_S8000x1_S8000x1) broadcasts_S8000x1_S8000x16 (ix2 p q) = _
  rw [shapeCast_self, shapeCast_self, LibColumnBroadcast.broadcastTo_a1_ab_apply]

/-- A block's entry is the whole scaled array's entry in row block `T`, when the two blocks hold rows `8000·T …` of the
    features `G` and of the column `C`. -/
theorem blockEntry (G : S6600000x16.Idx → EReal) (C : S6600000x1.Idx → EReal)
    (x0 : Vec Ideal S8000x16 .f32) (x1 : Vec Ideal S8000x1 .f32) (T : Nat) (hT : T < 825)
    (h0 : ∀ (p : Fin 8000) (q : Fin 16), x0 (ix2 p q) = G (ix2 (⟨T * 8000 + p.val, by omega⟩ : Fin 6600000) q))
    (h1 : ∀ (p : Fin 8000), x1 (ix2 p (0 : Fin 1)) = C (ix2 (⟨T * 8000 + p.val, by omega⟩ : Fin 6600000) (0 : Fin 1)))
    (j : S8000x16.Idx) (i : S6600000x16.Idx) (hi0 : (i 0).val = T * 8000 + (j 0).val) (hi1 : (i 1).val = (j 1).val) :
    k1_pay1 x0 x1 j = colScale G C i := by
  obtain ⟨p, q, rfl⟩ : ∃ (p : Fin 8000) (q : Fin 16), j = ix2 p q := ⟨j 0, j 1, eq_ix2 j⟩
  rw [blockScale]
  have hi : i = ix2 (⟨T * 8000 + p.val, by omega⟩ : Fin 6600000) q := by
    funext a; apply Fin.ext
    match a with
    | ⟨0, _⟩ => exact hi0
    | ⟨1, _⟩ => exact hi1
  rw [hi, colScale_apply, h0 p q, h1 p]

variable (V : (c : Dev nD) → (b : Ref sig .tc) → Buf (Elt Ideal) ((c : Thread nD τ).loc b))

/-- What grid point `t` writes back is block `t` of the features scaled row by row, as the region finds them. -/
theorem flushed_eq (c : Dev nD) (t : Fin cfg1.N) :
    (dat1 V c).flushed 2 t = ((cfg1.win 2).blk t).view.read (Elt Ideal) (colScale (V c main_v38) (V c main_v30)) := by
  show (cfg1.win 2).cut (grid1.coords t) ((dat1 V c).after 2 t) = _
  rw [after1_2]
  unfold out1_2
  rw [View.canon_unit_zero origin]
  simp only [View.ld_unit_zero (S := S8000x16) origin, View.ld_unit_zero (S := S8000x1) origin]
  obtain ⟨e0, e1, e2, e3, e4, e5⟩ := blockIndex t
  have hN : t.val < 825 := lt_of_lt_of_eq t.isLt N_1
  funext j
  show k1_pay1 (iblk1 V c 0 t) (iblk1 V c 1 t) j = colScale (V c main_v38) (V c main_v30) (((cfg1.win 2).blk t).view.emb j)
  refine blockEntry (V c main_v38) (V c main_v30) (iblk1 V c 0 t) (iblk1 V c 1 t) t.val hN (fun p q => ?_) (fun p => ?_) j _ ?_ ?_
  · show V c main_v38 (((cfg1.win 0).blk t).view.emb (ix2 p q)) = V c main_v38 _
    refine congrArg (V c main_v38) (funext fun a => Fin.ext ?_)
    match a with
    | ⟨0, _⟩ => show win1_0.index t (0 : Fin 2) * 8000 + 1 * p.val = t.val * 8000 + p.val; omega
    | ⟨1, _⟩ => show win1_0.index t (1 : Fin 2) * 16 + 1 * q.val = q.val; omega
  · show V c main_v30 (((cfg1.win 1).blk t).view.emb (ix2 p (0 : Fin 1))) = V c main_v30 _
    refine congrArg (V c main_v30) (funext fun a => Fin.ext ?_)
    match a with
    | ⟨0, _⟩ => show win1_1.index t (0 : Fin 2) * 8000 + 1 * p.val = t.val * 8000 + p.val; omega
    | ⟨1, _⟩ => show win1_1.index t (1 : Fin 2) * 1 + 1 * 0 = 0; omega
  · show win1_2.index t (0 : Fin 2) * 8000 + 1 * (j 0).val = t.val * 8000 + (j 0).val; omega
  · show win1_2.index t (1 : Fin 2) * 16 + 1 * (j 1).val = (j 1).val; omega

/-- An index of the result array is in point `t`'s block iff each coordinate is in the block's range on its axis. -/
theorem mem_blk (t : Fin cfg1.N) (i : S6600000x16.Idx) :
    i ∈ ((cfg1.win 2).blk t).view.set ↔ ∀ a : Fin 2, win1_2.index t a * S8000x16.size a ≤ (i a).val ∧ (i a).val < win1_2.index t a * S8000x16.size a + S8000x16.size a := by
  show i ∈ ((View.whole main_v39).slice (win1_2.rect t)).set ↔ _
  rw [View.set_slice_whole, Rect.mem_set_unit]
  exact Iff.rfl

/-- Every index of the result array lies in the block of the point its row falls in. -/
theorem cover (i : S6600000x16.Idx) :
    ∃ t : Fin cfg1.N, (cfg1.win 2).flush t = true ∧ i ∈ ((cfg1.win 2).blk t).view.set := by
  have hi0 : (i 0).val < 6600000 := idx2_lt0 i
  have hi1 : (i 1).val < 16 := idx2_lt1 i
  have hlt : (i 0).val / 8000 < cfg1.N := by rw [show cfg1.N = 825 from N_1]; omega
  obtain ⟨e0, e1, e2, e3, e4, e5⟩ := blockIndex ⟨(i 0).val / 8000, hlt⟩
  refine ⟨⟨(i 0).val / 8000, hlt⟩, flush1_2 _, ?_⟩
  rw [mem_blk]
  intro a
  match a with
  | ⟨0, _⟩ =>
    show win1_2.index ⟨(i 0).val / 8000, hlt⟩ (0 : Fin 2) * 8000 ≤ (i 0).val ∧ (i 0).val < win1_2.index ⟨(i 0).val / 8000, hlt⟩ (0 : Fin 2) * 8000 + 8000
    rw [e4]
    show (i 0).val / 8000 * 8000 ≤ (i 0).val ∧ (i 0).val < (i 0).val / 8000 * 8000 + 8000
    omega
  | ⟨1, _⟩ =>
    show win1_2.index ⟨(i 0).val / 8000, hlt⟩ (1 : Fin 2) * 16 ≤ (i 1).val ∧ (i 1).val < win1_2.index ⟨(i 0).val / 8000, hlt⟩ (1 : Fin 2) * 16 + 16
    rw [e5]
    omega

/-- The result array after the region: the features it found, each row scaled by the column's entry of that row. -/
theorem array (c : Dev nD) : (dat1 V c).arrAt 2 cfg1.N = colScale (V c main_v38) (V c main_v30) :=
  (dat1 V c).arrAt_eq_of_cover 2 (colScale (V c main_v38) (V c main_v30)) (fun t _ => flushed_eq V c t) cover

end Cert.KernelIdeal.MessageScale

end
-- ==== Proof.FirstLayer.lean ====
/-
  The idealized kernel program through its first layer: what each buffer holds at each boundary, as a stage of the
  graph convolution of the launch arguments.

  Before the first region the host computes the edge endpoints with their self-loops, the degrees, the node weights
  and the edges' normalisations, and lays the normalisations out as a column.  The first region multiplies the
  features by the first weight matrix, block of rows by block of rows: the whole product, which is the one-axis
  `dot_general` of the two arrays.  The host gathers each edge's source row; the second region scales every gathered
  row by its edge's normalisation — the column reshaped from the vector is the vector broadcast along a new unit axis,
  and a column repeated along the second axis multiplies each row by its scalar —; the host sums the messages at
  their targets, adds the bias and clamps at zero.
-/
import proofs.«141136_j65008624993013_2_alg».proof.Proof.Gen.KernelIdeal.Frame
import proofs.«141136_j65008624993013_2_alg».proof.Proof.Stages
import proofs.«141136_j65008624993013_2_alg».proof.Proof.LibMatProdRowScale
import proofs.«141136_j65008624993013_2_alg».proof.Proof.Carry
import proofs.«141136_j65008624993013_2_alg».proof.Proof.Entry
import proofs.«141136_j65008624993013_2_alg».proof.Proof.Between
import proofs.«141136_j65008624993013_2_alg».proof.Proof.FeatureProduct
import proofs.«141136_j65008624993013_2_alg».proof.Proof.MessageScale

set_option maxRecDepth 16384

noncomputable section

namespace Cert.KernelIdeal.FirstLayer

open Idealize.ShloMosaic Idealize.ShloMosaic.TcCoe Idealize.ShloMosaic.ValueIdx Idealize.SL.Sem
open Cert.KernelIdeal Cert.KernelIdeal.Gen Idealize.ShloMosaic.LibMatProdRowScale

variable (m : (ℓ : Loc nD τ sig) → Buf (Elt Ideal) ℓ) (ρ : Dev nD → PrngReg) (c : Dev nD)

open Cert.KernelIdeal.Entry

/-! ## The feature product -/

/-- The left operand's row is the result's row. -/
theorem dot1_lhsRow (i : Cert.ReferenceIdeal.S200000x16.Idx) (q : Cert.ReferenceIdeal.dot_S200000x165_S165x16_S200000x16_1_0_0_1_n_n.contr.Idx) :
    (Cert.ReferenceIdeal.dot_S200000x165_S165x16_S200000x16_1_0_0_1_n_n.lhsIdx i q 0).val = (i 0).val := by
  unfold DotDims.lhsIdx
  rw [dif_neg (show ¬(0 : Fin Cert.ReferenceIdeal.S200000x165.rank) ∈ Cert.ReferenceIdeal.dot_S200000x165_S165x16_S200000x16_1_0_0_1_n_n.lhsBatch by decide), dif_pos (show (0 : Fin Cert.ReferenceIdeal.S200000x165.rank) ∈ Cert.ReferenceIdeal.dot_S200000x165_S165x16_S200000x16_1_0_0_1_n_n.lhsNonContracting by decide)]
  rfl

/-- The right operand's column is the result's column. -/
theorem dot1_rhsCol (i : Cert.ReferenceIdeal.S200000x16.Idx) (q : Cert.ReferenceIdeal.dot_S200000x165_S165x16_S200000x16_1_0_0_1_n_n.contr.Idx) :
    (Cert.ReferenceIdeal.dot_S200000x165_S165x16_S200000x16_1_0_0_1_n_n.rhsIdx i q 1).val = (i 1).val := by
  unfold DotDims.rhsIdx
  rw [dif_neg (show ¬(1 : Fin Cert.ReferenceIdeal.S165x16.rank) ∈ Cert.ReferenceIdeal.dot_S200000x165_S165x16_S200000x16_1_0_0_1_n_n.rhsBatch by decide), dif_pos (show (1 : Fin Cert.ReferenceIdeal.S165x16.rank) ∈ Cert.ReferenceIdeal.dot_S200000x165_S165x16_S200000x16_1_0_0_1_n_n.rhsNonContracting by decide)]
  rfl

/-- The row-tiled product is the one-axis `dot_general` of the whole arrays. -/
theorem product1 : W4 m ρ c (Proc.devRef .tc main_v31)
    = Cert.ReferenceIdeal.Stages.transformed (m ((c.tc : Thread nD τ).loc main_arg0)) (m ((c.tc : Thread nD τ).loc main_arg2)) := by
  refine (W4_arr m ρ c 2).trans ?_
  rw [FeatureProduct.array (V3 m ρ) c]
  show matProd (W3 m ρ c (Proc.devRef .tc main_arg0)) (W3 m ρ c (Proc.devRef .tc main_arg2)) = _
  rw [entry_arg0, entry_arg2]
  exact (dotGeneral_eq_matProd (φ₁ := .f32) (φ₂ := .f32) Cert.ReferenceIdeal.dot_S200000x165_S165x16_S200000x16_1_0_0_1_n_n rfl rfl rfl rfl dot1_lhsRow dot1_rhsCol none _ _).symm

/-! ## Gathering, scaling, summing -/

theorem gathered1 : W5 m ρ c (Proc.devRef .tc main_v38)
    = Cert.ReferenceIdeal.Stages.gathered16 (Cert.ReferenceIdeal.Stages.transformed (m ((c.tc : Thread nD τ).loc main_arg0)) (m ((c.tc : Thread nD τ).loc main_arg2))) (m ((c.tc : Thread nD τ).loc main_arg1)) := by
  refine (Between.gather1 (W4 m ρ c)).trans ?_
  rw [product1, Carry.src_at4, entry_src]
  rfl

theorem messages1 : W6 m ρ c (Proc.devRef .tc main_v39)
    = Cert.ReferenceIdeal.Stages.messages16 (Cert.ReferenceIdeal.Stages.transformed (m ((c.tc : Thread nD τ).loc main_arg0)) (m ((c.tc : Thread nD τ).loc main_arg2))) (m ((c.tc : Thread nD τ).loc main_arg1)) := by
  refine (W6_arr m ρ c 2).trans ?_
  rw [MessageScale.array (V5 m ρ) c]
  show colScale (W5 m ρ c (Proc.devRef .tc main_v38)) (W5 m ρ c (Proc.devRef .tc main_v30)) = _
  rw [gathered1, Carry.norm_at5, entry_norm, colScale_shapeCast]
  exact (mul_bcast_bcast_eq_rowScale Cert.ReferenceIdeal.Facts₀.bcast_S6600000_S6600000x1_0 Cert.ReferenceIdeal.Facts₀.bcast_S6600000x1_S6600000x16_0_1 _ _).symm

theorem hidden1 : W8 m ρ c (Proc.devRef .tc main_v46)
    = Cert.ReferenceIdeal.Stages.hidden (m ((c.tc : Thread nD τ).loc main_arg0)) (m ((c.tc : Thread nD τ).loc main_arg1)) (m ((c.tc : Thread nD τ).loc main_arg2)) (m ((c.tc : Thread nD τ).loc main_arg3)) := by
  refine (Between.clampSum1 (W6 m ρ c)).trans ?_
  rw [messages1, Carry.dst_at6, entry_dst, Carry.bias1_at6, entry_arg3]
  rfl

end Cert.KernelIdeal.FirstLayer

end
-- ==== Proof.HiddenProduct.lean ====
/-
  The second layer's feature product `H · W2`, as the row-tiled region leaves it: one whole-array product.

  The product is tiled by rows: grid point `t` reads rows `20000·t … 20000·t + 19999` of the left array and the whole right
  array, and writes the same rows of the result.  Entry `(p, q)` of a block is the sum over `k` of the left block's
  `(p, k)` times the right array's `(k, q)` (the operands' change of float format is the identity on the extended reals, and
  the accumulator starts at zero), which is entry `(20000·t + p, q)` of the product of the whole arrays.  The 10 row blocks
  tile the 200000 rows — row `r` lies in block `r / 20000` — so the array ends holding the whole product.
-/
import proofs.«141136_j65008624993013_2_alg».proof.Proof.Gen.KernelIdeal.Frame
import proofs.«141136_j65008624993013_2_alg».proof.Proof.LibMatProdRowScale
import Idealize.ShloMosaic.Lib.Pipeline.Value

set_option maxRecDepth 16384

noncomputable section

open scoped BigOperators

namespace Cert.KernelIdeal.HiddenProduct

open Idealize.ShloMosaic Idealize.ShloMosaic.TcCoe Idealize.ShloMosaic.ValueIdx Idealize.SL.Sem
open Idealize.ShloMosaic.Pipeline (Dat Cfg Window)
open Cert.KernelIdeal Cert.KernelIdeal.Gen Idealize.ShloMosaic.LibMatProdRowScale

/-- The blocks' rectangles start at the origin. -/
theorem origin : (![0, 0] : Fin 2 → Nat) = fun _ => 0 := funext fun a => by fin_cases a <;> rfl

/-- Where each window's block sits at grid point `t`: the left operand's and the result's at row block `t`, the right
    operand's at the origin. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- The left operand's row is the result's row: axis 0 of the left operand is a free axis. -/
theorem lhsRow (i : S20000x2.Idx) (q : dot_S20000x16_S16x2_S20000x2_1_0_0_1_n_n.contr.Idx) :
    (dot_S20000x16_S16x2_S20000x2_1_0_0_1_n_n.lhsIdx i q 0).val = (i 0).val := by
  unfold DotDims.lhsIdx
  rw [dif_neg (show ¬(0 : Fin S20000x16.rank) ∈ dot_S20000x16_S16x2_S20000x2_1_0_0_1_n_n.lhsBatch by decide), dif_pos (show (0 : Fin S20000x16.rank) ∈ dot_S20000x16_S16x2_S20000x2_1_0_0_1_n_n.lhsNonContracting by decide)]
  rfl

/-- The right operand's column is the result's column: axis 1 of the right operand is a free axis. -/
theorem rhsCol (i : S20000x2.Idx) (q : dot_S20000x16_S16x2_S20000x2_1_0_0_1_n_n.contr.Idx) :
    (dot_S20000x16_S16x2_S20000x2_1_0_0_1_n_n.rhsIdx i q 1).val = (i 1).val := by
  unfold DotDims.rhsIdx
  rw [dif_neg (show ¬(1 : Fin S16x2.rank) ∈ dot_S20000x16_S16x2_S20000x2_1_0_0_1_n_n.rhsBatch by decide), dif_pos (show (1 : Fin S16x2.rank) ∈ dot_S20000x16_S16x2_S20000x2_1_0_0_1_n_n.rhsNonContracting by decide)]
  rfl

/-- A block's product, entry by entry. -/
theorem blockProduct (x0 : Vec Ideal S20000x16 .f32) (x1 : Vec Ideal S16x2 .f32) (p : Fin 20000) (q : Fin 2) :
    k2_pay1 x0 x1 (ix2 p q) = ∑ k : Fin 16, x0 (ix2 p k) * x1 (ix2 k q) := by
  unfold k2_pay1
  rw [shapeCast_self]
  exact LibMatmul2.matmul_zero_apply dot_S20000x16_S16x2_S20000x2_1_0_0_1_n_n rfl rfl rfl rfl lhsRow rhsCol none _ _ p q

/-- A block's entry is the whole product's entry in row block `T`, when the left block holds rows `20000·T …` of `X`
    and the right block is `W`. -/
theorem blockEntry (X : S200000x16.Idx → EReal) (W : S16x2.Idx → EReal)
    (x0 : Vec Ideal S20000x16 .f32) (x1 : Vec Ideal S16x2 .f32) (T : Nat) (hT : T < 10)
    (h0 : ∀ (p : Fin 20000) (k : Fin 16), x0 (ix2 p k) = X (ix2 (⟨T * 20000 + p.val, by omega⟩ : Fin 200000) k))
    (h1 : ∀ (k : Fin 16) (q : Fin 2), x1 (ix2 k q) = W (ix2 k q))
    (j : S20000x2.Idx) (i : S200000x2.Idx) (hi0 : (i 0).val = T * 20000 + (j 0).val) (hi1 : (i 1).val = (j 1).val) :
    k2_pay1 x0 x1 j = matProd X W i := by
  obtain ⟨p, q, rfl⟩ : ∃ (p : Fin 20000) (q : Fin 2), j = ix2 p q := ⟨j 0, j 1, eq_ix2 j⟩
  rw [blockProduct]
  have hi : i = ix2 (⟨T * 20000 + p.val, by omega⟩ : Fin 200000) q := by
    funext a; apply Fin.ext
    match a with
    | ⟨0, _⟩ => exact hi0
    | ⟨1, _⟩ => exact hi1
  rw [hi, matProd_apply]
  exact Finset.sum_congr rfl fun k _ => by rw [h0 p k, h1 k q]

variable (V : (c : Dev nD) → (b : Ref sig .tc) → Buf (Elt Ideal) ((c : Thread nD τ).loc b))

/-- What grid point `t` writes back is block `t` of the product of the two arrays as the region finds them. -/
theorem flushed_eq (c : Dev nD) (t : Fin cfg2.N) :
    (dat2 V c).flushed 2 t = ((cfg2.win 2).blk t).view.read (Elt Ideal) (matProd (V c main_v46) (V c main_arg4)) := by
  show (cfg2.win 2).cut (grid2.coords t) ((dat2 V c).after 2 t) = _
  rw [after2_2]
  unfold out2_2
  rw [View.canon_unit_zero origin]
  simp only [View.ld_unit_zero (S := S20000x16) origin, View.ld_unit_zero (S := S16x2) origin]
  obtain ⟨e0, e1, e2, e3, e4, e5⟩ := blockIndex t
  have hN : t.val < 10 := lt_of_lt_of_eq t.isLt N_2
  funext j
  show k2_pay1 (iblk2 V c 0 t) (iblk2 V c 1 t) j = matProd (V c main_v46) (V c main_arg4) (((cfg2.win 2).blk t).view.emb j)
  refine blockEntry (V c main_v46) (V c main_arg4) (iblk2 V c 0 t) (iblk2 V c 1 t) t.val hN (fun p k => ?_) (fun k q => ?_) j _ ?_ ?_
  · show V c main_v46 (((cfg2.win 0).blk t).view.emb (ix2 p k)) = V c main_v46 _
    refine congrArg (V c main_v46) (funext fun a => Fin.ext ?_)
    match a with
    | ⟨0, _⟩ => show win2_0.index t (0 : Fin 2) * 20000 + 1 * p.val = t.val * 20000 + p.val; omega
    | ⟨1, _⟩ => show win2_0.index t (1 : Fin 2) * 16 + 1 * k.val = k.val; omega
  · show V c main_arg4 (((cfg2.win 1).blk t).view.emb (ix2 k q)) = V c main_arg4 _
    refine congrArg (V c main_arg4) (funext fun a => Fin.ext ?_)
    match a with
    | ⟨0, _⟩ => show win2_1.index t (0 : Fin 2) * 16 + 1 * k.val = k.val; omega
    | ⟨1, _⟩ => show win2_1.index t (1 : Fin 2) * 2 + 1 * q.val = q.val; omega
  · show win2_2.index t (0 : Fin 2) * 20000 + 1 * (j 0).val = t.val * 20000 + (j 0).val; omega
  · show win2_2.index t (1 : Fin 2) * 2 + 1 * (j 1).val = (j 1).val; omega

/-- An index of the result array is in point `t`'s block iff each coordinate is in the block's range on its axis. -/
theorem mem_blk (t : Fin cfg2.N) (i : S200000x2.Idx) :
    i ∈ ((cfg2.win 2).blk t).view.set ↔ ∀ a : Fin 2, win2_2.index t a * S20000x2.size a ≤ (i a).val ∧ (i a).val < win2_2.index t a * S20000x2.size a + S20000x2.size a := by
  show i ∈ ((View.whole main_v47).slice (win2_2.rect t)).set ↔ _
  rw [View.set_slice_whole, Rect.mem_set_unit]
  exact Iff.rfl

/-- Every index of the result array lies in the block of the point its row falls in. -/
theorem cover (i : S200000x2.Idx) :
    ∃ t : Fin cfg2.N, (cfg2.win 2).flush t = true ∧ i ∈ ((cfg2.win 2).blk t).view.set := by
  have hi0 : (i 0).val < 200000 := idx2_lt0 i
  have hi1 : (i 1).val < 2 := idx2_lt1 i
  have hlt : (i 0).val / 20000 < cfg2.N := by rw [show cfg2.N = 10 from N_2]; omega
  obtain ⟨e0, e1, e2, e3, e4, e5⟩ := blockIndex ⟨(i 0).val / 20000, hlt⟩
  refine ⟨⟨(i 0).val / 20000, hlt⟩, flush2_2 _, ?_⟩
  rw [mem_blk]
  intro a
  match a with
  | ⟨0, _⟩ =>
    show win2_2.index ⟨(i 0).val / 20000, hlt⟩ (0 : Fin 2) * 20000 ≤ (i 0).val ∧ (i 0).val < win2_2.index ⟨(i 0).val / 20000, hlt⟩ (0 : Fin 2) * 20000 + 20000
    rw [e4]
    show (i 0).val / 20000 * 20000 ≤ (i 0).val ∧ (i 0).val < (i 0).val / 20000 * 20000 + 20000
    omega
  | ⟨1, _⟩ =>
    show win2_2.index ⟨(i 0).val / 20000, hlt⟩ (1 : Fin 2) * 2 ≤ (i 1).val ∧ (i 1).val < win2_2.index ⟨(i 0).val / 20000, hlt⟩ (1 : Fin 2) * 2 + 2
    rw [e5]
    omega

/-- The result array after the region: the product of the two arrays the region found. -/
theorem array (c : Dev nD) : (dat2 V c).arrAt 2 cfg2.N = matProd (V c main_v46) (V c main_arg4) :=
  (dat2 V c).arrAt_eq_of_cover 2 (matProd (V c main_v46) (V c main_arg4)) (fun t _ => flushed_eq V c t) cover

end Cert.KernelIdeal.HiddenProduct

end
-- ==== Proof.OutputScale.lean ====
/-
  The second layer's messages: the gathered features `[6600000, 2]`, each row scaled by its edge's normalisation.

  The scaling is tiled by rows: grid point `t` reads rows `8000·t … 8000·t + 7999` of the gathered features and the same
  rows of the column of row scalars, and writes the same rows of the result.  Entry `(p, q)` of a block is the features'
  `(p, q)` times the column's `(p, 0)` (the column is repeated along the second axis), which is entry `(8000·t + p, q)` of
  the whole array scaled row by row.  The 825 row blocks tile the 6600000 rows — row `r` lies in block `r / 8000`.
-/
import proofs.«141136_j65008624993013_2_alg».proof.Proof.Gen.KernelIdeal.Frame
import proofs.«141136_j65008624993013_2_alg».proof.Proof.LibMatProdRowScale
import Idealize.ShloMosaic.Lib.Pipeline.Value

set_option maxRecDepth 16384

noncomputable section

namespace Cert.KernelIdeal.OutputScale

open Idealize.ShloMosaic Idealize.ShloMosaic.TcCoe Idealize.ShloMosaic.ValueIdx Idealize.SL.Sem
open Idealize.ShloMosaic.Pipeline (Dat Cfg Window)
open Cert.KernelIdeal Cert.KernelIdeal.Gen Idealize.ShloMosaic.LibMatProdRowScale

/-- The blocks' rectangles start at the origin. -/
theorem origin : (![0, 0] : Fin 2 → Nat) = fun _ => 0 := funext fun a => by fin_cases a <;> rfl

/-- Where each window's block sits at grid point `t`: all three at row block `t`. -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0)

/-- A block's scaling, entry by entry. -/
theorem blockScale (x0 : Vec Ideal S8000x2 .f32) (x1 : Vec Ideal S8000x1 .f32) (p : Fin 8000) (q : Fin 2) :
    k3_pay1 x0 x1 (ix2 p q) = x0 (ix2 p q) * x1 (ix2 p (0 : Fin 1)) := by
  unfold k3_pay1
  show shapeCast S8000x2 x0 shapeCasts_S8000x2_S8000x2 (ix2 p q)
      * broadcastTo S8000x2 (shapeCast S8000x1 x1 shapeCasts_S8000x1_S8000x1) broadcasts_S8000x1_S8000x2 (ix2 p q) = _
  rw [shapeCast_self, shapeCast_self, LibColumnBroadcast.broadcastTo_a1_ab_apply]

/-- A block's entry is the whole scaled array's entry in row block `T`, when the two blocks hold rows `8000·T …` of the
    features `G` and of the column `C`. -/
theorem blockEntry (G : S6600000x2.Idx → EReal) (C : S6600000x1.Idx → EReal)
    (x0 : Vec Ideal S8000x2 .f32) (x1 : Vec Ideal S8000x1 .f32) (T : Nat) (hT : T < 825)
    (h0 : ∀ (p : Fin 8000) (q : Fin 2), x0 (ix2 p q) = G (ix2 (⟨T * 8000 + p.val, by omega⟩ : Fin 6600000) q))
    (h1 : ∀ (p : Fin 8000), x1 (ix2 p (0 : Fin 1)) = C (ix2 (⟨T * 8000 + p.val, by omega⟩ : Fin 6600000) (0 : Fin 1)))
    (j : S8000x2.Idx) (i : S6600000x2.Idx) (hi0 : (i 0).val = T * 8000 + (j 0).val) (hi1 : (i 1).val = (j 1).val) :
    k3_pay1 x0 x1 j = colScale G C i := by
  obtain ⟨p, q, rfl⟩ : ∃ (p : Fin 8000) (q : Fin 2), j = ix2 p q := ⟨j 0, j 1, eq_ix2 j⟩
  rw [blockScale]
  have hi : i = ix2 (⟨T * 8000 + p.val, by omega⟩ : Fin 6600000) q := by
    funext a; apply Fin.ext
    match a with
    | ⟨0, _⟩ => exact hi0
    | ⟨1, _⟩ => exact hi1
  rw [hi, colScale_apply, h0 p q, h1 p]

variable (V : (c : Dev nD) → (b : Ref sig .tc) → Buf (Elt Ideal) ((c : Thread nD τ).loc b))

/-- What grid point `t` writes back is block `t` of the features scaled row by row, as the region finds them. -/
theorem flushed_eq (c : Dev nD) (t : Fin cfg3.N) :
    (dat3 V c).flushed 2 t = ((cfg3.win 2).blk t).view.read (Elt Ideal) (colScale (V c main_v54) (V c main_v30)) := by
  show (cfg3.win 2).cut (grid3.coords t) ((dat3 V c).after 2 t) = _
  rw [after3_2]
  unfold out3_2
  rw [View.canon_unit_zero origin]
  simp only [View.ld_unit_zero (S := S8000x2) origin, View.ld_unit_zero (S := S8000x1) origin]
  obtain ⟨e0, e1, e2, e3, e4, e5⟩ := blockIndex t
  have hN : t.val < 825 := lt_of_lt_of_eq t.isLt N_3
  funext j
  show k3_pay1 (iblk3 V c 0 t) (iblk3 V c 1 t) j = colScale (V c main_v54) (V c main_v30) (((cfg3.win 2).blk t).view.emb j)
  refine blockEntry (V c main_v54) (V c main_v30) (iblk3 V c 0 t) (iblk3 V c 1 t) t.val hN (fun p q => ?_) (fun p => ?_) j _ ?_ ?_
  · show V c main_v54 (((cfg3.win 0).blk t).view.emb (ix2 p q)) = V c main_v54 _
    refine congrArg (V c main_v54) (funext fun a => Fin.ext ?_)
    match a with
    | ⟨0, _⟩ => show win3_0.index t (0 : Fin 2) * 8000 + 1 * p.val = t.val * 8000 + p.val; omega
    | ⟨1, _⟩ => show win3_0.index t (1 : Fin 2) * 2 + 1 * q.val = q.val; omega
  · show V c main_v30 (((cfg3.win 1).blk t).view.emb (ix2 p (0 : Fin 1))) = V c main_v30 _
    refine congrArg (V c main_v30) (funext fun a => Fin.ext ?_)
    match a with
    | ⟨0, _⟩ => show win3_1.index t (0 : Fin 2) * 8000 + 1 * p.val = t.val * 8000 + p.val; omega
    | ⟨1, _⟩ => show win3_1.index t (1 : Fin 2) * 1 + 1 * 0 = 0; omega
  · show win3_2.index t (0 : Fin 2) * 8000 + 1 * (j 0).val = t.val * 8000 + (j 0).val; omega
  · show win3_2.index t (1 : Fin 2) * 2 + 1 * (j 1).val = (j 1).val; omega

/-- An index of the result array is in point `t`'s block iff each coordinate is in the block's range on its axis. -/
theorem mem_blk (t : Fin cfg3.N) (i : S6600000x2.Idx) :
    i ∈ ((cfg3.win 2).blk t).view.set ↔ ∀ a : Fin 2, win3_2.index t a * S8000x2.size a ≤ (i a).val ∧ (i a).val < win3_2.index t a * S8000x2.size a + S8000x2.size a := by
  show i ∈ ((View.whole main_v55).slice (win3_2.rect t)).set ↔ _
  rw [View.set_slice_whole, Rect.mem_set_unit]
  exact Iff.rfl

/-- Every index of the result array lies in the block of the point its row falls in. -/
theorem cover (i : S6600000x2.Idx) :
    ∃ t : Fin cfg3.N, (cfg3.win 2).flush t = true ∧ i ∈ ((cfg3.win 2).blk t).view.set := by
  have hi0 : (i 0).val < 6600000 := idx2_lt0 i
  have hi1 : (i 1).val < 2 := idx2_lt1 i
  have hlt : (i 0).val / 8000 < cfg3.N := by rw [show cfg3.N = 825 from N_3]; omega
  obtain ⟨e0, e1, e2, e3, e4, e5⟩ := blockIndex ⟨(i 0).val / 8000, hlt⟩
  refine ⟨⟨(i 0).val / 8000, hlt⟩, flush3_2 _, ?_⟩
  rw [mem_blk]
  intro a
  match a with
  | ⟨0, _⟩ =>
    show win3_2.index ⟨(i 0).val / 8000, hlt⟩ (0 : Fin 2) * 8000 ≤ (i 0).val ∧ (i 0).val < win3_2.index ⟨(i 0).val / 8000, hlt⟩ (0 : Fin 2) * 8000 + 8000
    rw [e4]
    show (i 0).val / 8000 * 8000 ≤ (i 0).val ∧ (i 0).val < (i 0).val / 8000 * 8000 + 8000
    omega
  | ⟨1, _⟩ =>
    show win3_2.index ⟨(i 0).val / 8000, hlt⟩ (1 : Fin 2) * 2 ≤ (i 1).val ∧ (i 1).val < win3_2.index ⟨(i 0).val / 8000, hlt⟩ (1 : Fin 2) * 2 + 2
    rw [e5]
    omega

/-- The result array after the region: the features it found, each row scaled by the column's entry of that row. -/
theorem array (c : Dev nD) : (dat3 V c).arrAt 2 cfg3.N = colScale (V c main_v54) (V c main_v30) :=
  (dat3 V c).arrAt_eq_of_cover 2 (colScale (V c main_v54) (V c main_v30)) (fun t _ => flushed_eq V c t) cover

end Cert.KernelIdeal.OutputScale

end
-- ==== Proof.SecondLayer.lean ====
/-
  The idealized kernel program through its second layer, down to the result buffer.

  The third region multiplies the hidden features by the second weight matrix, block of rows by block of rows: the
  whole product, which is the one-axis `dot_general`.  The host gathers each edge's source row; the fourth region scales
  each gathered row by the same column of edge normalisations the first layer used (the reference computes the
  normalisations a second time from the same edge list: the same values); the host sums the messages at their targets
  and adds the bias.  What the result buffer holds at the end is the graph convolution's output of the launch arguments.
-/
import proofs.«141136_j65008624993013_2_alg».proof.Proof.Gen.KernelIdeal.Frame
import proofs.«141136_j65008624993013_2_alg».proof.Proof.Stages
import proofs.«141136_j65008624993013_2_alg».proof.Proof.LibMatProdRowScale
import proofs.«141136_j65008624993013_2_alg».proof.Proof.Carry
import proofs.«141136_j65008624993013_2_alg».proof.Proof.FirstLayer
import proofs.«141136_j65008624993013_2_alg».proof.Proof.HiddenProduct
import proofs.«141136_j65008624993013_2_alg».proof.Proof.OutputScale

set_option maxRecDepth 16384

noncomputable section

namespace Cert.KernelIdeal.SecondLayer

open Idealize.ShloMosaic Idealize.ShloMosaic.TcCoe Idealize.ShloMosaic.ValueIdx Idealize.SL.Sem
open Cert.KernelIdeal Cert.KernelIdeal.Gen Idealize.ShloMosaic.LibMatProdRowScale

variable (m : (ℓ : Loc nD τ sig) → Buf (Elt Ideal) ℓ) (ρ : Dev nD → PrngReg) (c : Dev nD)

open Cert.KernelIdeal.FirstLayer Cert.KernelIdeal.Entry

/-- The left operand's row is the result's row. -/
theorem dot2_lhsRow (i : Cert.ReferenceIdeal.S200000x2.Idx) (q : Cert.ReferenceIdeal.dot_S200000x16_S16x2_S200000x2_1_0_0_1_n_n.contr.Idx) :
    (Cert.ReferenceIdeal.dot_S200000x16_S16x2_S200000x2_1_0_0_1_n_n.lhsIdx i q 0).val = (i 0).val := by
  unfold DotDims.lhsIdx
  rw [dif_neg (show ¬(0 : Fin Cert.ReferenceIdeal.S200000x16.rank) ∈ Cert.ReferenceIdeal.dot_S200000x16_S16x2_S200000x2_1_0_0_1_n_n.lhsBatch by decide), dif_pos (show (0 : Fin Cert.ReferenceIdeal.S200000x16.rank) ∈ Cert.ReferenceIdeal.dot_S200000x16_S16x2_S200000x2_1_0_0_1_n_n.lhsNonContracting by decide)]
  rfl

/-- The right operand's column is the result's column. -/
theorem dot2_rhsCol (i : Cert.ReferenceIdeal.S200000x2.Idx) (q : Cert.ReferenceIdeal.dot_S200000x16_S16x2_S200000x2_1_0_0_1_n_n.contr.Idx) :
    (Cert.ReferenceIdeal.dot_S200000x16_S16x2_S200000x2_1_0_0_1_n_n.rhsIdx i q 1).val = (i 1).val := by
  unfold DotDims.rhsIdx
  rw [dif_neg (show ¬(1 : Fin Cert.ReferenceIdeal.S16x2.rank) ∈ Cert.ReferenceIdeal.dot_S200000x16_S16x2_S200000x2_1_0_0_1_n_n.rhsBatch by decide), dif_pos (show (1 : Fin Cert.ReferenceIdeal.S16x2.rank) ∈ Cert.ReferenceIdeal.dot_S200000x16_S16x2_S200000x2_1_0_0_1_n_n.rhsNonContracting by decide)]
  rfl

/-- The row-tiled product of the hidden features is the one-axis `dot_general` of the whole arrays. -/
theorem product2 : W9 m ρ c (Proc.devRef .tc main_v47) = Cert.ReferenceIdeal.Stages.projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W9_arr m ρ c 2).trans ?_
  rw [HiddenProduct.array (V8 m ρ) c]
  show matProd (W8 m ρ c (Proc.devRef .tc main_v46)) (W8 m ρ c (Proc.devRef .tc main_arg4)) = _
  rw [hidden1, Carry.weight2_at8, entry_arg4]
  exact (dotGeneral_eq_matProd (φ₁ := .f32) (φ₂ := .f32) Cert.ReferenceIdeal.dot_S200000x16_S16x2_S200000x2_1_0_0_1_n_n rfl rfl rfl rfl dot2_lhsRow dot2_rhsCol none _ _).symm

theorem gathered2 : W10 m ρ c (Proc.devRef .tc main_v54) = Cert.ReferenceIdeal.Stages.gathered2 (Cert.ReferenceIdeal.Stages.projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  refine (Between.gather2 (W9 m ρ c)).trans ?_
  rw [product2, Carry.src_at9, entry_src]
  rfl

theorem messages2 : W11 m ρ c (Proc.devRef .tc main_v55) = Cert.ReferenceIdeal.Stages.messages2 (Cert.ReferenceIdeal.Stages.projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  refine (W11_arr m ρ c 2).trans ?_
  rw [OutputScale.array (V10 m ρ) c]
  show colScale (W10 m ρ c (Proc.devRef .tc main_v54)) (W10 m ρ c (Proc.devRef .tc main_v30)) = _
  rw [gathered2, Carry.norm_at10, entry_norm, colScale_shapeCast]
  exact (mul_bcast_bcast_eq_rowScale Cert.ReferenceIdeal.Facts₀.bcast_S6600000_S6600000x1_0 Cert.ReferenceIdeal.Facts₀.bcast_S6600000x1_S6600000x2_0_1 _ _).symm

/-- The result buffer at the end of the program. -/
theorem output : W12 m ρ c (Proc.devRef .tc main_v61)
    = Cert.ReferenceIdeal.Stages.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Between.sum2 (W11 m ρ c)).trans ?_
  rw [messages2, Carry.dst_at11, entry_dst, Carry.bias2_at11, entry_arg5]
  rfl

end Cert.KernelIdeal.SecondLayer

end
-- ==== Proof.ReferenceValue.lean ====
/-
  The reference program's result is the graph convolution's output of its arguments.

  The reference is a line of host operations; its run ends with the result buffer at the operations' composed term of
  the arguments.  That term is, operation for operation, the stages of `Stages.lean` — the second layer recomputes the
  degrees, weights and normalisations from the same edge list, which is the same term again.
-/
import proofs.«141136_j65008624993013_2_alg».proof.Proof.ReferenceRunPatched
import proofs.«141136_j65008624993013_2_alg».proof.Proof.Stages

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

set_option maxRecDepth 16384 in
/-- The run's composed term is the output stage. -/
theorem result_eq (c : Dev nD) :
    ValueP.res_main_v94 (F := Ideal) m c
      = Stages.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold ValueP.res_main_v94
  rfl

/-- Every weakly fair execution of the reference terminates with the result buffer at the output stage of the
    arguments, and the arguments unchanged. -/
theorem run : θ_run defs (onTc (τ := τ) (main (F := Ideal))) ⟨m, fun _ => 0, ρ⟩ fun r => ∀ c : Dev nD,
      r.2.mem ((c.tc : Thread nD τ).loc main_v94)
        = Stages.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m c), (h c).2⟩) (ValueP.run (F := Ideal) m ρ)

end Cert.ReferenceIdeal.RefValue

end
-- ==== Proof.lean ====
/-
  A two-layer graph convolution computed with four row-tiled regions, against the same convolution computed by whole-array
  host operations: equal results on the extended reals.

  Both programs compute, from the edge list, the endpoints with a self-loop per node, the node degrees, the weights
  `1 / sqrt(degree)` and each edge's normalisation, by the same host operations; each layer then multiplies the node
  features by a weight matrix, gathers each edge's source row, scales it by the edge's normalisation, sums the scaled rows
  at the target nodes and adds a bias, with a clamp at zero between the layers.  The two differ only in how a layer's
  matrix product and its scaling are carried out:

  * the product: blocks of rows through a tiled region, each block the sum over the contracted axis with a zero
    accumulator (the operands' change of float format is the identity on the extended reals), against one `dot_general` of
    the whole arrays — the same sum, entry by entry, since a row of the product depends on that row of the left array only;
  * the scaling: blocks of rows through a tiled region, each row times its entry of a column of normalisations that the
    host reshaped from the vector, against a product with the vector broadcast along a new axis and repeated — the same
    product, entry by entry;
  * the normalisations are computed once and used by both layers, where the reference computes them once per layer from
    the same edge list.

  No law used needs finiteness: nothing is distributed or cancelled, so the precondition is never opened.  Every shared
  host operation (the scatter-adds, the gathers, the reciprocal square root) is carried as the same function applied to
  equal operands and is never unfolded.

  The frames of the two kernel programs are the generated ones.  The reference's frame is its run with the result dropped.
  The idealization rewrote no operation, so there is nothing to preserve.
-/
import proofs.«141136_j65008624993013_2_alg».proof.Defs
import proofs.«141136_j65008624993013_2_alg».proof.Proof.Gen.Kernel
import proofs.«141136_j65008624993013_2_alg».proof.Proof.Gen.Kernel.Frame
import proofs.«141136_j65008624993013_2_alg».proof.Proof.Gen.KernelIdeal
import proofs.«141136_j65008624993013_2_alg».proof.Proof.Gen.KernelIdeal.Frame
import proofs.«141136_j65008624993013_2_alg».proof.Proof.Gen.ReferenceIdeal
import proofs.«141136_j65008624993013_2_alg».proof.Proof.Gen.Pre_finite_inputs
import proofs.«141136_j65008624993013_2_alg».proof.Proof.WholeRun
import proofs.«141136_j65008624993013_2_alg».proof.Proof.SecondLayer
import proofs.«141136_j65008624993013_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both programs end with the result buffer at the graph convolution's output of the same arguments. -/
theorem algebraic : Cert.algebraic_KernelIdeal_ReferenceIdeal := by
  intro m ρ m' ρ' _ hagree
  refine ⟨fun c => Cert.ReferenceIdeal.Stages.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.SecondLayer.output m ρ c), (h c).2⟩)
      (Cert.KernelIdeal.WholeRun.result (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
